-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x14x14 : Shape := ⟨4, ![4, 2048, 14, 14]⟩
abbrev S80x300 : Shape := ⟨2, ![80, 300]⟩
abbrev S1024x2048 : Shape := ⟨2, ![1024, 2048]⟩
abbrev S1024x300 : Shape := ⟨2, ![1024, 300]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S4x2048x14x14 : S_.BroadcastsInDim S4x2048x14x14 (![] : Fin 0 → Fin S4x2048x14x14.rank)
  reducesTo_S4x2048x14x14_S_d0_1_2_3 : S4x2048x14x14.ReducesTo [0, 1, 2, 3] S_
  h_S_ : 0 < S_.numel
  bcast_S_S80x300 : S_.BroadcastsInDim S80x300 (![] : Fin 0 → Fin S80x300.rank)
  reducesTo_S80x300_S_d0_1 : S80x300.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024x300 : S_.BroadcastsInDim S1024x300 (![] : Fin 0 → Fin S1024x300.rank)
  reducesTo_S1024x300_S_d0_1 : S1024x300.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1x1024 .f32) (main_arg7 : FVec F S1 .f32) (main_v13 : IVec S_ 1) (main_v16 : IVec S1024x300 1) : IVec S_ 1 :=
  let main_c_5 : IVec S_ 1 := constantI S_ 1 1#1
  let main_v17 : IVec S_ 1 := (fun x v => Host.reduce IntOp.andi x v reducesTo_S1024x300_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_v33

def fn {F : FTy → Type} [FloatOps F] (main_arg0 : FVec F S4x2048x14x14 .f32) (main_arg1 : FVec F S80x300 .f32) (main_arg2 : FVec F S1024x2048 .f32) (main_arg3 : FVec F S1024x300 .f32) (main_arg4 : FVec F S1024x1024 .f32) (main_arg5 : FVec F S1024 .f32) (main_arg6 : FVec F S1x1024 .f32) (main_arg7 : FVec F S1 .f32) : IVec S_ 1 :=
  let main_v0 : FVec F S4x2048x14x14 .f32 := Host.absf main_arg0
  let main_cst : FVec F S_ .f32 := constant S_ .f32 0x7F800000#32
  let main_v1 : FVec F S4x2048x14x14 .f32 := broadcastInDim S4x2048x14x14 ![] bcast_S_S4x2048x14x14 main_cst
  let main_v2 : IVec S4x2048x14x14 1 := cmpf .olt main_v0 main_v1
  let main_c : IVec S_ 1 := constantI S_ 1 1#1
  let main_v3 : IVec S_ 1 := (fun x v => Host.reduce IntOp.andi x v reducesTo_S4x2048x14x14_S_d0_1_2_3 h_S_) main_v2 main_c
  let main_v4 : FVec F S80x300 .f32 := Host.absf main_arg1
  let main_cst_0 : FVec F S_ .f32 := constant S_ .f32 0x7F800000#32
  let main_v5 : FVec F S80x300 .f32 := broadcastInDim S80x300 ![] bcast_S_S80x300 main_cst_0
  let main_v6 : IVec S80x300 1 := cmpf .olt main_v4 main_v5
  let main_c_1 : IVec S_ 1 := constantI S_ 1 1#1
  let main_v7 : IVec S_ 1 := (fun x v => Host.reduce IntOp.andi x v reducesTo_S80x300_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024x300 .f32 := Host.absf main_arg3
  let main_cst_4 : FVec F S_ .f32 := constant S_ .f32 0x7F800000#32
  let main_v15 : FVec F S1024x300 .f32 := broadcastInDim S1024x300 ![] bcast_S_S1024x300 main_cst_4
  let main_v16 : IVec S1024x300 1 := cmpf .olt main_v14 main_v15
  fn_part1 (F := F) main_arg4 main_arg5 main_arg6 main_arg7 main_v13 main_v16
-- ==== Kernel.lean ====
abbrev S4x2048x14x14 : Shape := ⟨4, ![4, 2048, 14, 14]⟩
abbrev S80x300 : Shape := ⟨2, ![80, 300]⟩
abbrev S1024x2048 : Shape := ⟨2, ![1024, 2048]⟩
abbrev S1024x300 : Shape := ⟨2, ![1024, 300]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S4x14x14x2048 : Shape := ⟨4, ![4, 14, 14, 2048]⟩
abbrev S4x196x2048 : Shape := ⟨3, ![4, 196, 2048]⟩
abbrev S80x1024 : Shape := ⟨2, ![80, 1024]⟩
abbrev S_ : Shape := ⟨0, ![]⟩
abbrev S1x1 : Shape := ⟨2, ![1, 1]⟩
abbrev S4x196x80 : Shape := ⟨3, ![4, 196, 80]⟩
abbrev S1x196x2048 : Shape := ⟨3, ![1, 196, 2048]⟩
abbrev S1x196x80 : Shape := ⟨3, ![1, 196, 80]⟩
abbrev S196x2048 : Shape := ⟨2, ![196, 2048]⟩
abbrev S196x1024 : Shape := ⟨2, ![196, 1024]⟩
abbrev S16x1024 : Shape := ⟨2, ![16, 1024]⟩
abbrev S196x1x1024 : Shape := ⟨3, ![196, 1, 1024]⟩
abbrev S1x16x1024 : Shape := ⟨3, ![1, 16, 1024]⟩
abbrev S196x16x1024 : Shape := ⟨3, ![196, 16, 1024]⟩
abbrev S1x1x1024 : Shape := ⟨3, ![1, 1, 1024]⟩
abbrev S196x16 : Shape := ⟨2, ![196, 16]⟩
abbrev S196x80 : Shape := ⟨2, ![196, 80]⟩
abbrev S80 : Shape := ⟨1, ![80]⟩
abbrev S1x80 : Shape := ⟨2, ![1, 80]⟩
abbrev S4x14x14x80 : Shape := ⟨4, ![4, 14, 14, 80]⟩
abbrev S4x196x1x2048 : Shape := ⟨4, ![4, 196, 1, 2048]⟩
abbrev S4x196x1x80 : Shape := ⟨4, ![4, 196, 1, 80]⟩
abbrev S4x196x80x2048 : Shape := ⟨4, ![4, 196, 80, 2048]⟩
abbrev S1x28x1x2048 : Shape := ⟨4, ![1, 28, 1, 2048]⟩
abbrev S1x28x1x80 : Shape := ⟨4, ![1, 28, 1, 80]⟩
abbrev S1x28x80x2048 : Shape := ⟨4, ![1, 28, 80, 2048]⟩
abbrev S28x2048 : Shape := ⟨2, ![28, 2048]⟩
abbrev S28x80 : Shape := ⟨2, ![28, 80]⟩
abbrev S28x1x2048 : Shape := ⟨3, ![28, 1, 2048]⟩
abbrev S28x80x1 : Shape := ⟨3, ![28, 80, 1]⟩
abbrev S28x80x2048 : Shape := ⟨3, ![28, 80, 2048]⟩
abbrev S4x14x14x80x2048 : Shape := ⟨5, ![4, 14, 14, 80, 2048]⟩
abbrev S4x80x2048 : Shape := ⟨3, ![4, 80, 2048]⟩

abbrev nBuf : Space → Nat
  | .hbm => 27
  | .vmem => 14
  | .smem => 0
  | _ => 0

abbrev bufTy : (tb : Table) → Fin (tcTables nBuf tb) → BufTy
  | .hbm, ⟨0, _⟩ => ⟨S4x2048x14x14, .f32⟩
  | .hbm, ⟨1, _⟩ => ⟨S80x300, .f32⟩
  | .hbm, ⟨2, _⟩ => ⟨S1024x2048, .f32⟩
  | .hbm, ⟨3, _⟩ => ⟨S1024x300, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1, .f32⟩
  | .hbm, ⟨8, _⟩ => ⟨S4x14x14x2048, .f32⟩
  | .hbm, ⟨9, _⟩ => ⟨S4x196x2048, .f32⟩
  | .hbm, ⟨10, _⟩ => ⟨S80x1024, .f32⟩
  | .hbm, ⟨11, _⟩ => ⟨S1x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x1, .f32⟩
  | .hbm, ⟨19, _⟩ => ⟨S1024x2048, .bf16⟩
  | .hbm, ⟨20, _⟩ => ⟨S4x196x80, .f32⟩
  | .hbm, ⟨21, _⟩ => ⟨S4x14x14x80, .f32⟩
  | .hbm, ⟨22, _⟩ => ⟨S4x196x1x2048, .f32⟩
  | .hbm, ⟨23, _⟩ => ⟨S4x196x1x80, .f32⟩
  | .hbm, ⟨24, _⟩ => ⟨S4x196x80x2048, .f32⟩
  | .hbm, ⟨25, _⟩ => ⟨S4x14x14x80x2048, .f32⟩
  | .hbm, ⟨26, _⟩ => ⟨S4x80x2048, .f32⟩
  | .local _ .vmem, ⟨0, _⟩ => ⟨S1x196x2048, .f32⟩
  | .local _ .vmem, ⟨1, _⟩ => ⟨S1x196x2048, .f32⟩
  | .local _ .vmem, ⟨2, _⟩ => ⟨S80x1024, .f32⟩
  | .local _ .vmem, ⟨3, _⟩ => ⟨S1024x2048, .bf16⟩
  | .local _ .vmem, ⟨4, _⟩ => ⟨S1x1024, .f32⟩
  | .local _ .vmem, ⟨5, _⟩ => ⟨S1x1, .f32⟩
  | .local _ .vmem, ⟨6, _⟩ => ⟨S1x196x80, .f32⟩
  | .local _ .vmem, ⟨7, _⟩ => ⟨S1x196x80, .f32⟩
  | .local _ .vmem, ⟨8, _⟩ => ⟨S1x28x1x2048, .f32⟩
  | .local _ .vmem, ⟨9, _⟩ => ⟨S1x28x1x2048, .f32⟩
  | .local _ .vmem, ⟨10, _⟩ => ⟨S1x28x1x80, .f32⟩
  | .local _ .vmem, ⟨11, _⟩ => ⟨S1x28x1x80, .f32⟩
  | .local _ .vmem, ⟨12, _⟩ => ⟨S1x28x80x2048, .f32⟩
  | .local _ .vmem, ⟨13, _⟩ => ⟨S1x28x80x2048, .f32⟩
  | _, _ => ⟨S4x2048x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x196x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x196x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 7], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x28x1x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x28x1x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x28x80x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  transposes_S4x2048x14x14_S4x14x14x2048_0_2_3_1 : S4x2048x14x14.Transposes [0, 2, 3, 1] S4x14x14x2048
  shapeCasts_S4x14x14x2048_S4x196x2048 : S4x14x14x2048.ShapeCasts S4x196x2048
  shapeCasts_S1x1024_S1024 : S1x1024.ShapeCasts S1024
  reducesTo_S1024_S_d0 : S1024.ReducesTo [0] S_
  h_S_ : 0 < S_.numel
  shapeCasts_S1_S_ : S1.ShapeCasts S_
  shapeCasts_S_S1x1 : S_.ShapeCasts S1x1
  bitsLt_bf16_f32 : FTy.bits .bf16 < FTy.bits .f32
  inb_S1x196x2048_S1x196x2048_0_0_0 : ∀ a, (![0, 0, 0] : Fin 3 → Nat) a + S1x196x2048.size a ≤ S1x196x2048.size a
  h_S1x196x2048 : 0 < S1x196x2048.numel
  shapeCasts_S1x196x2048_S196x2048 : S1x196x2048.ShapeCasts S196x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S80x1024_S80x1024_0_0 : ∀ a, (![0, 0] : Fin 2 → Nat) a + S80x1024.size a ≤ S80x1024.size a
  h_S80x1024 : 0 < S80x1024.numel
  shapeCasts_S80x1024_S80x1024 : S80x1024.ShapeCasts S80x1024
  inb_S1x1024_S1x1024_0_0 : ∀ a, (![0, 0] : Fin 2 → Nat) a + S1x1024.size a ≤ S1x1024.size a
  h_S1x1024 : 0 < S1x1024.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S80x1024_o0_0_S16x1024 : S80x1024.Slices ![0, 0] S16x1024
  shapeCasts_S196x1024_S196x1x1024 : S196x1024.ShapeCasts S196x1x1024
  shapeCasts_S16x1024_S1x16x1024 : S16x1024.ShapeCasts S1x16x1024
  broadcasts_S196x1x1024_S196x16x1024 : S196x1x1024.Broadcasts S196x16x1024
  broadcasts_S1x16x1024_S196x16x1024 : S1x16x1024.Broadcasts S196x16x1024
  shapeCasts_S1024_S1x1x1024 : S1024.ShapeCasts S1x1x1024
  broadcasts_S1x1x1024_S196x16x1024 : S1x1x1024.Broadcasts S196x16x1024
  reduces_S196x16x1024_S196x16 : S196x16x1024.Reduces [2] S196x16
  slices_S80x1024_o16_0_S16x1024 : S80x1024.Slices ![16, 0] S16x1024
  slices_S80x1024_o32_0_S16x1024 : S80x1024.Slices ![32, 0] S16x1024
  slices_S80x1024_o48_0_S16x1024 : S80x1024.Slices ![48, 0] S16x1024
  slices_S80x1024_o64_0_S16x1024 : S80x1024.Slices ![64, 0] S16x1024
  concatenates_S196x16_S196x16_S196x16_S196x16_S196x16_S196x80_d1 : Shape.Concatenates [S196x16, S196x16, S196x16, S196x16, S196x16] S196x80 1
  reduces_S196x80_S80 : S196x80.Reduces [0] S80
  shapeCasts_S80_S1x80 : S80.ShapeCasts S1x80
  broadcasts_S1x80_S196x80 : S1x80.Broadcasts S196x80
  inb_S1x196x80_S1x196x80_0_0_0 : ∀ a, (![0, 0, 0] : Fin 3 → Nat) a + S1x196x80.size a ≤ S1x196x80.size a
  h_S1x196x80 : 0 < S1x196x80.numel
  shapeCasts_S1x196x80_S196x80 : S1x196x80.ShapeCasts S196x80
  shapeCasts_S196x80_S1x196x80 : S196x80.ShapeCasts S1x196x80
  shapeCasts_S4x196x80_S4x14x14x80 : S4x196x80.ShapeCasts S4x14x14x80
  shapeCasts_S4x196x2048_S4x196x1x2048 : S4x196x2048.ShapeCasts S4x196x1x2048
  shapeCasts_S4x196x80_S4x196x1x80 : S4x196x80.ShapeCasts S4x196x1x80
  inb_S1x28x1x2048_S1x28x1x2048_0_0_0_0 : ∀ a, (![0, 0, 0, 0] : Fin 4 → Nat) a + S1x28x1x2048.size a ≤ S1x28x1x2048.size a
  h_S1x28x1x2048 : 0 < S1x28x1x2048.numel
  shapeCasts_S1x28x1x2048_S28x2048 : S1x28x1x2048.ShapeCasts S28x2048
  inb_S1x28x1x80_S1x28x1x80_0_0_0_0 : ∀ a, (![0, 0, 0, 0] : Fin 4 → Nat) a + S1x28x1x80.size a ≤ S1x28x1x80.size a
  h_S1x28x1x80 : 0 < S1x28x1x80.numel
  shapeCasts_S1x28x1x80_S28x80 : S1x28x1x80.ShapeCasts S28x80
  shapeCasts_S28x2048_S28x1x2048 : S28x2048.ShapeCasts S28x1x2048
  shapeCasts_S28x80_S28x80x1 : S28x80.ShapeCasts S28x80x1
  broadcasts_S28x1x2048_S28x80x2048 : S28x1x2048.Broadcasts S28x80x2048
  broadcasts_S28x80x1_S28x80x2048 : S28x80x1.Broadcasts S28x80x2048
  inb_S1x28x80x2048_S1x28x80x2048_0_0_0_0 : ∀ a, (![0, 0, 0, 0] : Fin 4 → Nat) a + S1x28x80x2048.size a ≤ S1x28x80x2048.size a
  h_S1x28x80x2048 : 0 < S1x28x80x2048.numel
  shapeCasts_S1x28x80x2048_S28x80x2048 : S1x28x80x2048.ShapeCasts S28x80x2048
  shapeCasts_S28x80x2048_S1x28x80x2048 : S28x80x2048.ShapeCasts S1x28x80x2048
  shapeCasts_S4x196x80x2048_S4x14x14x80x2048 : S4x196x80x2048.ShapeCasts S4x14x14x80x2048
  dot_S80x300_S1024x300_S80x1024_1_1_0_0_n_n_wf : DotDims.WF S80x300 S1024x300 S80x1024 [1] [1] [0] [0] [] []
  dot_S1x1024_S1024x1024_S1x1024_1_0_0_1_n_n_wf : DotDims.WF S1x1024 S1024x1024 S1x1024 [1] [0] [0] [1] [] []
  dot_S196x2048_S1024x2048_S196x1024_1_1_0_0_n_n_wf : DotDims.WF S196x2048 S1024x2048 S196x1024 [1] [1] [0] [0] [] []
  dot_S4x196x80_S4x196x2048_S4x80x2048_1_1_2_2_0_0_wf : DotDims.WF S4x196x80 S4x196x2048 S4x80x2048 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x196x2048.size a ≤ S4x196x2048.size a
  hwx0_0 : ∀ i : grid0.Coords, EltTy.bits .f32 = 32 ∨ (Rect.block (s := S4x196x2048) S1x196x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x1024.size a ≤ S80x1024.size a
  hwx0_1 : ∀ i : grid0.Coords, EltTy.bits .f32 = 32 ∨ (Rect.block (s := S80x1024) S80x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x196x80.size a ≤ S4x196x80.size a
  hwx0_5 : ∀ i : grid0.Coords, EltTy.bits .f32 = 32 ∨ (Rect.block (s := S4x196x80) S1x196x80.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x28x1x2048.size a ≤ S4x196x1x2048.size a
  hwx1_0 : ∀ i : grid1.Coords, EltTy.bits .f32 = 32 ∨ (Rect.block (s := S4x196x1x2048) S1x28x1x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x28x1x80.size a ≤ S4x196x1x80.size a
  hwx1_1 : ∀ i : grid1.Coords, EltTy.bits .f32 = 32 ∨ (Rect.block (s := S4x196x1x80) S1x28x1x80.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x28x80x2048.size a ≤ S4x196x80x2048.size a
  hwx1_2 : ∀ i : grid1.Coords, EltTy.bits .f32 = 32 ∨ (Rect.block (s := S4x196x80x2048) S1x28x80x2048.size (cc1_transform_2 i) (hinb1_2 i)).WholeWords (EltTy.packing .f32)

variable [Facts₀]

def dot_S80x300_S1024x300_S80x1024_1_1_0_0_n_n : DotDims S80x300 S1024x300 S80x1024 where
  lhsContracting := [1]
  rhsContracting := [1]
  lhsNonContracting := [0]
  rhsNonContracting := [0]
  lhsBatch := []
  rhsBatch := []
  wf := dot_S80x300_S1024x300_S80x1024_1_1_0_0_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S196x2048_S1024x2048_S196x1024_1_1_0_0_n_n : DotDims S196x2048 S1024x2048 S196x1024 where
  lhsContracting := [1]
  rhsContracting := [1]
  lhsNonContracting := [0]
  rhsNonContracting := [0]
  lhsBatch := []
  rhsBatch := []
  wf := dot_S196x2048_S1024x2048_S196x1024_1_1_0_0_n_n_wf
def dot_S4x196x80_S4x196x2048_S4x80x2048_1_1_2_2_0_0 : DotDims S4x196x80 S4x196x2048 S4x80x2048 where
  lhsContracting := [1]
  rhsContracting := [1]
  lhsNonContracting := [2]
  rhsNonContracting := [2]
  lhsBatch := [0]
  rhsBatch := [0]
  wf := dot_S4x196x80_S4x196x2048_S4x80x2048_1_1_2_2_0_0_wf

abbrev win0_0 : Pipeline.Window sig grid0 :=
  Pipeline.Window.ofSpec (Memref.whole main_v1) S1x196x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S80x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x196x80.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S1x28x1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x28x1x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x28x80x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x14x14 : Shape := ⟨4, ![4, 2048, 14, 14]⟩
abbrev S80x300 : Shape := ⟨2, ![80, 300]⟩
abbrev S1024x2048 : Shape := ⟨2, ![1024, 2048]⟩
abbrev S1024x300 : Shape := ⟨2, ![1024, 300]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S4x14x14x2048 : Shape := ⟨4, ![4, 14, 14, 2048]⟩
abbrev S4x14x14x1024 : Shape := ⟨4, ![4, 14, 14, 1024]⟩
abbrev S80x1024 : Shape := ⟨2, ![80, 1024]⟩
abbrev S4x14x14x1x1024 : Shape := ⟨5, ![4, 14, 14, 1, 1024]⟩
abbrev S1x1x1x80x1024 : Shape := ⟨5, ![1, 1, 1, 80, 1024]⟩
abbrev S4x14x14x80x1024 : Shape := ⟨5, ![4, 14, 14, 80, 1024]⟩
abbrev S1x1x1x1x1024 : Shape := ⟨5, ![1, 1, 1, 1, 1024]⟩
abbrev S4x14x14x80x1 : Shape := ⟨5, ![4, 14, 14, 80, 1]⟩
abbrev S4x14x14x80 : Shape := ⟨4, ![4, 14, 14, 80]⟩
abbrev S_ : Shape := ⟨0, ![]⟩
abbrev S4x196x80 : Shape := ⟨3, ![4, 196, 80]⟩
abbrev S4x80 : Shape := ⟨2, ![4, 80]⟩
abbrev S4x1x80 : Shape := ⟨3, ![4, 1, 80]⟩
abbrev S4x14x14x1x2048 : Shape := ⟨5, ![4, 14, 14, 1, 2048]⟩
abbrev S4x14x14x80x2048 : Shape := ⟨5, ![4, 14, 14, 80, 2048]⟩
abbrev S4x80x2048 : Shape := ⟨3, ![4, 80, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x14x14, .f32⟩
  | .hbm, ⟨1, _⟩ => ⟨S80x300, .f32⟩
  | .hbm, ⟨2, _⟩ => ⟨S1024x2048, .f32⟩
  | .hbm, ⟨3, _⟩ => ⟨S1024x300, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1, .f32⟩
  | .hbm, ⟨8, _⟩ => ⟨S4x14x14x2048, .f32⟩
  | .hbm, ⟨9, _⟩ => ⟨S4x14x14x1024, .f32⟩
  | .hbm, ⟨10, _⟩ => ⟨S80x1024, .f32⟩
  | .hbm, ⟨11, _⟩ => ⟨S4x14x14x1x1024, .f32⟩
  | .hbm, ⟨12, _⟩ => ⟨S1x1x1x80x1024, .f32⟩
  | .hbm, ⟨13, _⟩ => ⟨S4x14x14x80x1024, .f32⟩
  | .hbm, ⟨14, _⟩ => ⟨S4x14x14x80x1024, .f32⟩
  | .hbm, ⟨15, _⟩ => ⟨S4x14x14x80x1024, .f32⟩
  | .hbm, ⟨16, _⟩ => ⟨S4x14x14x80x1024, .f32⟩
  | .hbm, ⟨17, _⟩ => ⟨S4x14x14x80x1024, .f32⟩
  | .hbm, ⟨18, _⟩ => ⟨S1x1x1x1x1024, .f32⟩
  | .hbm, ⟨19, _⟩ => ⟨S4x14x14x80x1024, .f32⟩
  | .hbm, ⟨20, _⟩ => ⟨S4x14x14x80x1024, .f32⟩
  | .hbm, ⟨21, _⟩ => ⟨S4x14x14x80x1, .f32⟩
  | .hbm, ⟨22, _⟩ => ⟨S4x14x14x80, .f32⟩
  | .hbm, ⟨23, _⟩ => ⟨S_, .f32⟩
  | .hbm, ⟨24, _⟩ => ⟨S4x14x14x80, .f32⟩
  | .hbm, ⟨25, _⟩ => ⟨S4x14x14x80, .f32⟩
  | .hbm, ⟨26, _⟩ => ⟨S4x196x80, .f32⟩
  | .hbm, ⟨27, _⟩ => ⟨S_, .f32⟩
  | .hbm, ⟨28, _⟩ => ⟨S4x80, .f32⟩
  | .hbm, ⟨29, _⟩ => ⟨S_, .f32⟩
  | .hbm, ⟨30, _⟩ => ⟨S4x80, .f32⟩
  | .hbm, ⟨31, _⟩ => ⟨S4x80, .f32⟩
  | .hbm, ⟨32, _⟩ => ⟨S4x1x80, .f32⟩
  | .hbm, ⟨33, _⟩ => ⟨S4x196x80, .f32⟩
  | .hbm, ⟨34, _⟩ => ⟨S4x196x80, .f32⟩
  | .hbm, ⟨35, _⟩ => ⟨S4x196x80, .f32⟩
  | .hbm, ⟨36, _⟩ => ⟨S_, .f32⟩
  | .hbm, ⟨37, _⟩ => ⟨S4x80, .f32⟩
  | .hbm, ⟨38, _⟩ => ⟨S4x1x80, .f32⟩
  | .hbm, ⟨39, _⟩ => ⟨S4x196x80, .f32⟩
  | .hbm, ⟨40, _⟩ => ⟨S4x196x80, .f32⟩
  | .hbm, ⟨41, _⟩ => ⟨S4x14x14x80, .f32⟩
  | .hbm, ⟨42, _⟩ => ⟨S4x14x14x1x2048, .f32⟩
  | .hbm, ⟨43, _⟩ => ⟨S4x14x14x80x1, .f32⟩
  | .hbm, ⟨44, _⟩ => ⟨S4x14x14x80x2048, .f32⟩
  | .hbm, ⟨45, _⟩ => ⟨S4x14x14x80x2048, .f32⟩
  | .hbm, ⟨46, _⟩ => ⟨S4x14x14x80x2048, .f32⟩
  | .hbm, ⟨47, _⟩ => ⟨S_, .f32⟩
  | .hbm, ⟨48, _⟩ => ⟨S4x80x2048, .f32⟩
  | _, _ => ⟨S4x2048x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  transposes_S4x2048x14x14_S4x14x14x2048_0_2_3_1 : S4x2048x14x14.Transposes [0, 2, 3, 1] S4x14x14x2048
  bcast_S4x14x14x1024_S4x14x14x1x1024_0_1_2_4 : S4x14x14x1024.BroadcastsInDim S4x14x14x1x1024 (![0, 1, 2, 4] : Fin 4 → Fin S4x14x14x1x1024.rank)
  bcast_S80x1024_S1x1x1x80x1024_3_4 : S80x1024.BroadcastsInDim S1x1x1x80x1024 (![3, 4] : Fin 2 → Fin S1x1x1x80x1024.rank)
  bcast_S4x14x14x1x1024_S4x14x14x80x1024_0_1_2_3_4 : S4x14x14x1x1024.BroadcastsInDim S4x14x14x80x1024 (![0, 1, 2, 3, 4] : Fin 5 → Fin S4x14x14x80x1024.rank)
  bcast_S1x1x1x80x1024_S4x14x14x80x1024_0_1_2_3_4 : S1x1x1x80x1024.BroadcastsInDim S4x14x14x80x1024 (![0, 1, 2, 3, 4] : Fin 5 → Fin S4x14x14x80x1024.rank)
  bcast_S1024_S1x1x1x1x1024_4 : S1024.BroadcastsInDim S1x1x1x1x1024 (![4] : Fin 1 → Fin S1x1x1x1x1024.rank)
  bcast_S1x1x1x1x1024_S4x14x14x80x1024_0_1_2_3_4 : S1x1x1x1x1024.BroadcastsInDim S4x14x14x80x1024 (![0, 1, 2, 3, 4] : Fin 5 → Fin S4x14x14x80x1024.rank)
  shapeCasts_S4x14x14x80x1_S4x14x14x80 : S4x14x14x80x1.ShapeCasts S4x14x14x80
  shapeCasts_S1_S_ : S1.ShapeCasts S_
  bcast_S_S4x14x14x80 : S_.BroadcastsInDim S4x14x14x80 (![] : Fin 0 → Fin S4x14x14x80.rank)
  shapeCasts_S4x14x14x80_S4x196x80 : S4x14x14x80.ShapeCasts S4x196x80
  reducesTo_S4x196x80_S4x80_d1 : S4x196x80.ReducesTo [1] S4x80
  h_S_ : 0 < S_.numel
  bcast_S_S4x80 : S_.BroadcastsInDim S4x80 (![] : Fin 0 → Fin S4x80.rank)
  bcast_S4x80_S4x1x80_0_2 : S4x80.BroadcastsInDim S4x1x80 (![0, 2] : Fin 2 → Fin S4x1x80.rank)
  bcast_S4x1x80_S4x196x80_0_1_2 : S4x1x80.BroadcastsInDim S4x196x80 (![0, 1, 2] : Fin 3 → Fin S4x196x80.rank)
  shapeCasts_S4x196x80_S4x14x14x80 : S4x196x80.ShapeCasts S4x14x14x80
  bcast_S4x14x14x2048_S4x14x14x1x2048_0_1_2_4 : S4x14x14x2048.BroadcastsInDim S4x14x14x1x2048 (![0, 1, 2, 4] : Fin 4 → Fin S4x14x14x1x2048.rank)
  bcast_S4x14x14x80_S4x14x14x80x1_0_1_2_3 : S4x14x14x80.BroadcastsInDim S4x14x14x80x1 (![0, 1, 2, 3] : Fin 4 → Fin S4x14x14x80x1.rank)
  bcast_S4x14x14x1x2048_S4x14x14x80x2048_0_1_2_3_4 : S4x14x14x1x2048.BroadcastsInDim S4x14x14x80x2048 (![0, 1, 2, 3, 4] : Fin 5 → Fin S4x14x14x80x2048.rank)
  bcast_S4x14x14x80x1_S4x14x14x80x2048_0_1_2_3_4 : S4x14x14x80x1.BroadcastsInDim S4x14x14x80x2048 (![0, 1, 2, 3, 4] : Fin 5 → Fin S4x14x14x80x2048.rank)
  reducesTo_S4x14x14x80x2048_S4x80x2048_d1_2 : S4x14x14x80x2048.ReducesTo [1, 2] S4x80x2048
  dot_S4x14x14x2048_S1024x2048_S4x14x14x1024_3_1_012_0_n_n_wf : DotDims.WF S4x14x14x2048 S1024x2048 S4x14x14x1024 [3] [1] [0, 1, 2] [0] [] []
  dot_S80x300_S1024x300_S80x1024_1_1_0_0_n_n_wf : DotDims.WF S80x300 S1024x300 S80x1024 [1] [1] [0] [0] [] []
  dot_S4x14x14x80x1024_S1024x1024_S4x14x14x80x1024_4_1_0123_0_n_n_wf : DotDims.WF S4x14x14x80x1024 S1024x1024 S4x14x14x80x1024 [4] [1] [0, 1, 2, 3] [0] [] []
  dot_S4x14x14x80x1024_S1x1024_S4x14x14x80x1_4_1_0123_0_n_n_wf : DotDims.WF S4x14x14x80x1024 S1x1024 S4x14x14x80x1 [4] [1] [0, 1, 2, 3] [0] [] []

variable [Facts₀]

def dot_S4x14x14x2048_S1024x2048_S4x14x14x1024_3_1_012_0_n_n : DotDims S4x14x14x2048 S1024x2048 S4x14x14x1024 where
  lhsContracting := [3]
  rhsContracting := [1]
  lhsNonContracting := [0, 1, 2]
  rhsNonContracting := [0]
  lhsBatch := []
  rhsBatch := []
  wf := dot_S4x14x14x2048_S1024x2048_S4x14x14x1024_3_1_012_0_n_n_wf
def dot_S80x300_S1024x300_S80x1024_1_1_0_0_n_n : DotDims S80x300 S1024x300 S80x1024 where
  lhsContracting := [1]
  rhsContracting := [1]
  lhsNonContracting := [0]
  rhsNonContracting := [0]
  lhsBatch := []
  rhsBatch := []
  wf := dot_S80x300_S1024x300_S80x1024_1_1_0_0_n_n_wf
def dot_S4x14x14x80x1024_S1024x1024_S4x14x14x80x1024_4_1_0123_0_n_n : DotDims S4x14x14x80x1024 S1024x1024 S4x14x14x80x1024 where
  lhsContracting := [4]
  rhsContracting := [1]
  lhsNonContracting := [0, 1, 2, 3]
  rhsNonContracting := [0]
  lhsBatch := []
  rhsBatch := []
  wf := dot_S4x14x14x80x1024_S1024x1024_S4x14x14x80x1024_4_1_0123_0_n_n_wf
def dot_S4x14x14x80x1024_S1x1024_S4x14x14x80x1_4_1_0123_0_n_n : DotDims S4x14x14x80x1024 S1x1024 S4x14x14x80x1 where
  lhsContracting := [4]
  rhsContracting := [1]
  lhsNonContracting := [0, 1, 2, 3]
  rhsNonContracting := [0]
  lhsBatch := []
  rhsBatch := []
  wf := dot_S4x14x14x80x1024_S1x1024_S4x14x14x80x1_4_1_0123_0_n_n_wf

class Facts : Prop extends Facts₀ where

variable [Facts]
-- ==== Proof.Spec.lean ====
/-
  The mathematics both programs compute, over the extended reals, with no program in sight.

  From an image `img[b, c, h, w]`, word vectors, and four weight matrices, a per-position, per-class
  coefficient is formed, `coef[b, s, k]` with `s = 14 h + w`; a softmax over the 196 positions `s` turns it
  into attention weights `attn[b, s, k]`; the three results are the weights, the pixels scaled by the
  weights, and the weighted sum of the pixels over the positions.

  The two programs differ only in how the coefficient is associated. With `t[d] = tanh (iproj[b,s,d] · wproj[k,d])`
  one computes `Σ_e (Σ_d t[d]·W3[e,d] + b3[e]) · W4[e] + b4` and the other
  `Σ_d t[d] · (Σ_e W4[e]·W3[e,d]) + (Σ_e b3[e]·W4[e] + b4)`. Every `t[d]` is a real number (tanh is
  bounded), so when `W3`, `b3` and `W4` hold real numbers the two are equal by distributivity and an
  exchange of the two finite sums (`coefK_eq_coefR`, in module Law).
-/
import Idealize.ShloMosaic.PureOps.Ideal
import Idealize.ShloMosaic.PureOps.Ideal.Laws
import Idealize.ShloMosaic.Lib.ValueIdx

noncomputable section

open scoped BigOperators

namespace Cert.Pool

open Idealize.ShloMosaic Idealize.ShloMosaic.ValueIdx

/-- An array of extended reals over a shape. -/
abbrev Arr (s : Shape) : Type := s.Idx → EReal

/-- The flat position `14 h + w` of pixel `(h, w)`. -/
def sp (h w : Fin 14) : Fin 196 := ⟨h.val * 14 + w.val, by omega⟩
/-- The row of flat position `s`. -/
def hOf (s : Fin 196) : Fin 14 := ⟨s.val / 14, by omega⟩
/-- The column of flat position `s`. -/
def wOf (s : Fin 196) : Fin 14 := ⟨s.val % 14, Nat.mod_lt _ (by decide)⟩

theorem sp_hOf_wOf (s : Fin 196) : sp (hOf s) (wOf s) = s := Fin.ext (by simp only [sp, hOf, wOf]; omega)
theorem hOf_sp (h w : Fin 14) : hOf (sp h w) = h := Fin.ext (by simp only [sp, hOf]; omega)
theorem wOf_sp (h w : Fin 14) : wOf (sp h w) = w := Fin.ext (by simp only [sp, wOf]; omega)

/-- The eight argument arrays. -/
structure Inputs where
  img : Arr ⟨4, ![4, 2048, 14, 14]⟩
  word : Arr ⟨2, ![80, 300]⟩
  W1 : Arr ⟨2, ![1024, 2048]⟩
  W2 : Arr ⟨2, ![1024, 300]⟩
  W3 : Arr ⟨2, ![1024, 1024]⟩
  b3 : Arr ⟨1, ![1024]⟩
  W4 : Arr ⟨2, ![1, 1024]⟩
  b4 : Arr ⟨1, ![1]⟩

/-! ## The softmax over positions, for one image -/

/-- Minus infinity, as the word both programs start their maximum from. -/
def negInf : EReal := Ideal.ofBits .f32 0xFF800000#32

/-- The largest coefficient of class `k` over the positions. -/
def smax1 (cf : Fin 196 → Fin 80 → EReal) (k : Fin 80) : EReal :=
  (Finset.univ : Finset (Fin 196)).fold max negInf (fun s => cf s k)
/-- The shifted exponential. -/
def expo1 (cf : Fin 196 → Fin 80 → EReal) (s : Fin 196) (k : Fin 80) : EReal := Ideal.exp (cf s k - smax1 cf k)
/-- The attention weight of position `s` for class `k`. -/
def attn1 (cf : Fin 196 → Fin 80 → EReal) (s : Fin 196) (k : Fin 80) : EReal :=
  Ideal.div (expo1 cf s k) (∑ s' : Fin 196, expo1 cf s' k)

/-! ## The coefficient from the arrays one launch of the first kernel sees -/

/-- `Σ_d tanh ((Σ_c X[b,s,c]·Wb[d,c]) · Wp[k,d]) · v[0,d] + cc[0,0]`. -/
def coefG (X : Arr ⟨3, ![4, 196, 2048]⟩) (Wp : Arr ⟨2, ![80, 1024]⟩) (Wb : Arr ⟨2, ![1024, 2048]⟩) (v : Arr ⟨2, ![1, 1024]⟩)
    (cc : Arr ⟨2, ![1, 1]⟩) (b : Fin 4) (s : Fin 196) (k : Fin 80) : EReal :=
  (∑ d : Fin 1024, Ideal.tanh ((∑ c : Fin 2048, X (ix3 b s c) * Wb (ix2 d c)) * Wp (ix2 k d)) * v (ix2 0 d)) + cc (ix2 0 0)

/-- The weights array `[4, 196, 80]` from such arrays. -/
def attnG (X : Arr ⟨3, ![4, 196, 2048]⟩) (Wp : Arr ⟨2, ![80, 1024]⟩) (Wb : Arr ⟨2, ![1024, 2048]⟩) (v : Arr ⟨2, ![1, 1024]⟩)
    (cc : Arr ⟨2, ![1, 1]⟩) : Arr ⟨3, ![4, 196, 80]⟩ :=
  fun i => attn1 (coefG X Wp Wb v cc (i 0)) (i 1) (i 2)

/-! ## The pieces, from the arguments -/

/-- Pixel `(b, s)`'s channel `c`. -/
def pix (I : Inputs) (b : Fin 4) (s : Fin 196) (c : Fin 2048) : EReal := I.img (ix4 b c (hOf s) (wOf s))
/-- The pixels as a `[4, 196, 2048]` array. -/
def pixArr (I : Inputs) : Arr ⟨3, ![4, 196, 2048]⟩ := fun i => pix I (i 0) (i 1) (i 2)
/-- The projected word vectors. -/
def wproj (I : Inputs) (k : Fin 80) (d : Fin 1024) : EReal := ∑ v : Fin 300, I.word (ix2 k v) * I.W2 (ix2 d v)
def wprojArr (I : Inputs) : Arr ⟨2, ![80, 1024]⟩ := fun i => wproj I (i 0) (i 1)
/-- The projected pixels. -/
def iproj (I : Inputs) (b : Fin 4) (s : Fin 196) (d : Fin 1024) : EReal := ∑ c : Fin 2048, pix I b s c * I.W1 (ix2 d c)
/-- The bounded interaction. -/
def inter (I : Inputs) (b : Fin 4) (s : Fin 196) (k : Fin 80) (d : Fin 1024) : EReal := Ideal.tanh (iproj I b s d * wproj I k d)

/-- One program folds the last two layers into a vector and a scalar first. -/
def vfold (I : Inputs) (d : Fin 1024) : EReal := ∑ e : Fin 1024, I.W4 (ix2 0 e) * I.W3 (ix2 e d)
def vArr (I : Inputs) : Arr ⟨2, ![1, 1024]⟩ := fun i => vfold I (i 1)
def cfold (I : Inputs) : EReal := (∑ e : Fin 1024, I.b3 (ix1 e) * I.W4 (ix2 0 e)) + I.b4 (ix1 0)
def cArr (I : Inputs) : Arr ⟨2, ![1, 1]⟩ := fun _ => cfold I
def coefK (I : Inputs) (b : Fin 4) (s : Fin 196) (k : Fin 80) : EReal := (∑ d : Fin 1024, inter I b s k d * vfold I d) + cfold I

/-- The other applies them one after the other. -/
def feat (I : Inputs) (b : Fin 4) (s : Fin 196) (k : Fin 80) (e : Fin 1024) : EReal :=
  (∑ d : Fin 1024, inter I b s k d * I.W3 (ix2 e d)) + I.b3 (ix1 e)
def coefR (I : Inputs) (b : Fin 4) (s : Fin 196) (k : Fin 80) : EReal :=
  (∑ e : Fin 1024, feat I b s k e * I.W4 (ix2 0 e)) + I.b4 (ix1 0)

theorem coefG_eq_coefK (I : Inputs) : coefG (pixArr I) (wprojArr I) I.W1 (vArr I) (cArr I) = coefK I := rfl

/-! ## The three results, from a coefficient -/

/-- The weights, `[4, 14, 14, 80]`. -/
def outSm (coef : Fin 4 → Fin 196 → Fin 80 → EReal) : Arr ⟨4, ![4, 14, 14, 80]⟩ :=
  fun i => attn1 (coef (i 0)) (sp (i 1) (i 2)) (i 3)
/-- The weighted pixels, `[4, 14, 14, 80, 2048]`. -/
def outFwc (I : Inputs) (coef : Fin 4 → Fin 196 → Fin 80 → EReal) : Arr ⟨5, ![4, 14, 14, 80, 2048]⟩ :=
  fun i => pix I (i 0) (sp (i 1) (i 2)) (i 4) * attn1 (coef (i 0)) (sp (i 1) (i 2)) (i 3)
/-- Their sum over the positions, `[4, 80, 2048]`. -/
def outSem (I : Inputs) (coef : Fin 4 → Fin 196 → Fin 80 → EReal) : Arr ⟨3, ![4, 80, 2048]⟩ :=
  fun i => ∑ s : Fin 196, attn1 (coef (i 0)) s (i 1) * pix I (i 0) s (i 2)

/-- The arrays the law needs real: `W3`, `b3`, `W4`. -/
structure RealWeights (I : Inputs) : Prop where
  W3 : ∀ i, ∃ r : ℝ, I.W3 i = (r : EReal)
  b3 : ∀ i, ∃ r : ℝ, I.b3 i = (r : EReal)
  W4 : ∀ i, ∃ r : ℝ, I.W4 i = (r : EReal)

end Cert.Pool

end
-- ==== Proof.Law.lean ====
/-
  The law that joins the two programs: with real `W3`, `b3`, `W4` — and the tanh factors real whatever their arguments —
  folding the last two layers into one vector and one scalar first, or applying them one after the other, gives the
  same coefficient: distributivity and an exchange of two finite sums, carried out in the reals.
-/
import proofs.«131559_j55396488184259_2_alg».proof.Proof.Spec

noncomputable section

open scoped BigOperators

namespace Cert.Pool

open Idealize.ShloMosaic Idealize.ShloMosaic.ValueIdx

/-- The coercion of the reals into the extended reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The hyperbolic tangent of any extended real is a real number: `-1` at `⊥`, `1` at `⊤`. -/
private theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

/-- The law in the reals: distributivity and an exchange of the two finite sums. -/
private theorem real_law (t : Fin 1024 → ℝ) (w3 : Fin 1024 → Fin 1024 → ℝ) (c3 w4 : Fin 1024 → ℝ) :
    (∑ d : Fin 1024, t d * (∑ e : Fin 1024, w4 e * w3 e d)) + (∑ e : Fin 1024, c3 e * w4 e)
      = ∑ e : Fin 1024, ((∑ d : Fin 1024, t d * w3 e d) + c3 e) * w4 e := by
  simp only [add_mul, Finset.sum_add_distrib, Finset.mul_sum, Finset.sum_mul]
  congr 1
  rw [Finset.sum_comm]
  exact Finset.sum_congr rfl (fun e _ => Finset.sum_congr rfl (fun d _ => by ring))

/-- With real `W3`, `b3`, `W4` the two associations of the coefficient agree. -/
theorem coefK_eq_coefR (I : Inputs) (h : RealWeights I) : coefK I = coefR I := by
  funext b s k
  choose w3 hw3 using h.W3
  choose c3 hc3 using h.b3
  choose w4 hw4 using h.W4
  choose t ht using fun d : Fin 1024 => tanh_real (iproj I b s d * wproj I k d)
  have hK : coefK I b s k
      = (((∑ d : Fin 1024, t d * (∑ e : Fin 1024, w4 (ix2 0 e) * w3 (ix2 e d)))
          + (∑ e : Fin 1024, c3 (ix1 e) * w4 (ix2 0 e)) : ℝ) : EReal) + I.b4 (ix1 0) := by
    unfold coefK cfold vfold inter
    rw [← add_assoc]
    congr 1
    rw [EReal.coe_add, coe_sum, coe_sum]
    congr 1
    · refine Finset.sum_congr rfl (fun d _ => ?_)
      rw [EReal.coe_mul, coe_sum, ht d]
      congr 1
      refine Finset.sum_congr rfl (fun e _ => ?_)
      rw [EReal.coe_mul, hw4, hw3]
    · refine Finset.sum_congr rfl (fun e _ => ?_)
      rw [EReal.coe_mul, hc3, hw4]
  have hR : coefR I b s k
      = ((∑ e : Fin 1024, ((∑ d : Fin 1024, t d * w3 (ix2 e d)) + c3 (ix1 e)) * w4 (ix2 0 e) : ℝ) : EReal)
          + I.b4 (ix1 0) := by
    unfold coefR feat inter
    congr 1
    rw [coe_sum]
    refine Finset.sum_congr rfl (fun e _ => ?_)
    rw [EReal.coe_mul, EReal.coe_add, coe_sum, hw4, hc3]
    congr 2
    refine Finset.sum_congr rfl (fun d _ => ?_)
    rw [EReal.coe_mul, ht d, hw3]
  rw [hK, hR, real_law t (fun e d => w3 (ix2 e d)) (fun e => c3 (ix1 e)) (fun e => w4 (ix2 0 e))]

end Cert.Pool

end
-- ==== Proof.Finite.lean ====
/-
  The precondition read back: `finite_inputs` all ones says every entry of every float argument has absolute value below `+∞`;
  for `W3`, `b3` and `W4`, the three arrays the law needs, every entry is then a real number.
-/
import proofs.«131559_j55396488184259_2_alg».proof.Proof.Spec
import proofs.«131559_j55396488184259_2_alg».proof.Pre_finite_inputs
import proofs.«131559_j55396488184259_2_alg».proof.Proof.Gen.Pre_finite_inputs
import Idealize.ShloMosaic.Lib.ReduceAll

noncomputable section

open scoped BigOperators

namespace Cert.Pool

open Idealize.ShloMosaic Idealize.ShloMosaic.ValueIdx Cert.Pre_finite_inputs

/-- The shape of rank zero has one index. -/
private instance subsingleton_S_ : Subsingleton S_.Idx := ⟨fun a b => funext fun d => d.elim0⟩

/-- An extended real whose absolute value is below `+∞` is a real number. -/
private theorem real_of_abs_lt_inf (x : EReal)
    (e : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  have htop : Ideal.ofBits .f32 0x7F800000#32 = ⊤ := by simp [Ideal.ofBits, Ideal.ieee]
  have e' : Ideal.cmp .olt (max x (-x)) (Ideal.ofBits .f32 0x7F800000#32) = 1#1 := e
  rw [htop] at e'
  unfold Ideal.cmp at e'
  induction x using EReal.rec with
  | bot => simp at e'
  | coe r => exact ⟨r, rfl⟩
  | top => simp at e'

/-- One `jnp.all(|x| < inf)` that holds makes every entry of `x` a real number. -/
private theorem real_of_all {s : Shape} {axes : List (Fin s.rank)} (x : s.Idx → EReal)
    (hb : S_.BroadcastsInDim s (![] : Fin 0 → Fin s.rank)) (hr : s.ReducesTo axes S_) (hu : 0 < S_.numel)
    (e : Host.reduce IntOp.andi
          (cmpf (F := Ideal) (φ := .f32) .olt (Host.absf (F := Ideal) (φ := .f32) x)
            (broadcastInDim s ![] hb (constant (F := Ideal) S_ .f32 0x7F800000#32)))
          (constantI S_ 1 1#1) hr hu ix0 = 1#1) (i : s.Idx) :
    ∃ r : ℝ, x i = (r : EReal) :=
  real_of_abs_lt_inf (x i) (Host.reduce_andi_all _ _ hr hu ix0 e i)

/-- The precondition, all ones, makes every entry of `W3`, `b3`, `W4` a real number. -/
theorem realWeights_of_fn [Cert.Pre_finite_inputs.Facts] (x0 : (⟨S4x2048x14x14, .f32⟩ : BufTy).Contents (Elt Ideal)) (x1 : (⟨S80x300, .f32⟩ : BufTy).Contents (Elt Ideal)) (x2 : (⟨S1024x2048, .f32⟩ : BufTy).Contents (Elt Ideal)) (x3 : (⟨S1024x300, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (x7 : (⟨S1, .f32⟩ : BufTy).Contents (Elt Ideal))
    (h : Cert.Pre_finite_inputs.fn (F := Ideal) x0 x1 x2 x3 x4 x5 x6 x7 = fun _ => 1#1) :
    RealWeights ⟨x0, x1, x2, x3, x4, x5, x6, x7⟩ := by
  have h0 := congrFun h ValueIdx.ix0
  dsimp only [Cert.Pre_finite_inputs.fn, Cert.Pre_finite_inputs.fn_part1, Cert.Pre_finite_inputs.fn_part2] at h0
  obtain ⟨h33, h37⟩ := IntOp.andi_eq_one.1 h0
  obtain ⟨h28, h32⟩ := IntOp.andi_eq_one.1 h33
  obtain ⟨h23, h27⟩ := IntOp.andi_eq_one.1 h28
  obtain ⟨h18, h22⟩ := IntOp.andi_eq_one.1 h23
  exact ⟨fun i => real_of_all x4 _ _ _ h22 i, fun i => real_of_all x5 _ _ _ h27 i, fun i => real_of_all x6 _ _ _ h32 i⟩

end Cert.Pool

end
-- ==== Proof.KRun.lean ====
/-
  The idealized kernel's run with its three results named: every weakly fair execution of the program
  terminates, nothing faulting, with the argument arrays as launched and each result buffer at the contents the
  fold through the program's segments gives it at the last boundary — the host lines before, between and after
  the two regions applied in order, each region's arrays at what its write-backs leave.
-/
import proofs.«131559_j55396488184259_2_alg».proof.Proof.Gen.KernelIdeal.Frame

-- membership in a rectangle of production extents (`View.cover_of_tiled`): the elaborator's structural look
-- recurses once per coordinate of the long axes
set_option maxRecDepth 16384

noncomputable section

namespace Cert.KernelIdeal.Val

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Cert.KernelIdeal.Facts]

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's segments, the last thread state read against the final state: each result
    buffer holds the last boundary's contents, each argument its launch contents. -/
theorem run_named : θ_run defs (onTc (τ := τ) (main (F := F))) ⟨m, fun _ => 0, ρ⟩ (fun r => ∀ c : Dev nD,
      r.2.mem ((c.tc : Thread nD τ).loc main_v17) = W5 m ρ c (Proc.devRef .tc main_v17)
      ∧ r.2.mem ((c.tc : Thread nD τ).loc main_v16) = W5 m ρ c (Proc.devRef .tc main_v16)
      ∧ r.2.mem ((c.tc : Thread nD τ).loc main_v12) = W5 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v17 (by decide)), h c _ (mem_uc main_v16 (by decide)), h c _ (mem_uc main_v12 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Val

end
-- ==== Proof.K0Coef.lean ====
/-
  The coefficient of one image as a function of the five blocks the first kernel loads: the pixels of the image, the projected
  words, `W1`, the folded vector and the folded scalar.
-/
import proofs.«131559_j55396488184259_2_alg».proof.Proof.Spec
import proofs.«131559_j55396488184259_2_alg».proof.Proof.Gen.KernelIdeal.Frame

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable [Cert.KernelIdeal.Facts]

/-- The coefficient of one image from the blocks the first kernel loads. -/
def coefB (x0 : Vec Ideal S1x196x2048 .f32) (x1 : Vec Ideal S80x1024 .f32) (x2 : Vec Ideal S1024x2048 .bf16) (x3 : Vec Ideal S1x1024 .f32)
    (x4 : Vec Ideal S1x1 .f32) (s : Fin 196) (k : Fin 80) : EReal :=
  (∑ d : Fin 1024, Ideal.tanh ((∑ c : Fin 2048, x0 (ix3 0 s c) * x2 (ix2 d c)) * x1 (ix2 k d)) * x3 (ix2 0 d)) + x4 (ix2 0 0)

end Cert.KernelIdeal.Val

end
-- ==== Proof.K0PayLemmas.lean ====
import proofs.«131559_j55396488184259_2_alg».proof.Proof.Spec
import proofs.«131559_j55396488184259_2_alg».proof.Proof.Gen.KernelIdeal.Skeleton
import Idealize.ShloMosaic.Lib.Pipeline.Value
import Idealize.ShloMosaic.Lib.ValueLayout

/-!
  The first kernel's stored value, read entry by entry, over VARIABLE vectors.

  The body forms the coefficient block in five parts of sixteen classes each, glues them along the class axis, and
  takes the softmax over the 196 positions. Each of those three steps is named here as a function of variable
  vectors, and read at an index:
  * a part at (s, j) is  Σ_d tanh (P[s,d] · Wp[o+j,d]) · v[d] + c  (part_apply);
  * the glued block at (s, k) is part k / 16 at (s, k mod 16)  (cat5_at0 … cat5_at4);
  * the tail at (0, s, k) is the softmax over positions of the block  (tail_apply);
  and the matrix product at (s, d) is  Σ_c X[0,s,c] · W[d,c]  (pay2_apply).
-/

noncomputable section

open scoped BigOperators

namespace Cert.KernelIdeal.Val

open Cert.KernelIdeal Cert.KernelIdeal.Gen Idealize.ShloMosaic Idealize.ShloMosaic.ValueIdx Idealize.SL.Sem

/-! ## One part of sixteen classes -/

/-- The bounded interaction of every position with the sixteen classes from row o of the projected words. -/
def tanhPart (o : Nat) (hs : S80x1024.Slices ![o, 0] S16x1024) (P : FVec Ideal S196x1024 .f32) (Wp : FVec Ideal S80x1024 .f32) :
    FVec Ideal S196x16x1024 .f32 :=
  tanh (mulf
    (broadcastTo S196x16x1024 (shapeCast S196x1x1024 P shapeCasts_S196x1024_S196x1x1024) broadcasts_S196x1x1024_S196x16x1024)
    (broadcastTo S196x16x1024 (shapeCast S1x16x1024 (extractStridedSlice S16x1024 ![o, 0] Wp hs) shapeCasts_S16x1024_S1x16x1024)
      broadcasts_S1x16x1024_S196x16x1024))

/-- The weighted sum over the features of a bounded interaction, plus the constant. -/
def finish (T : FVec Ideal S196x16x1024 .f32) (vv : FVec Ideal S1024 .f32) (c : Ideal .f32) : FVec Ideal S196x16 .f32 :=
  addf (multiReduction .add [2] S196x16
      (mulf T (broadcastTo S196x16x1024 (shapeCast S1x1x1024 vv shapeCasts_S1024_S1x1x1024) broadcasts_S1x1x1024_S196x16x1024))
      0x00000000#32 reduces_S196x16x1024_S196x16 (.inl rfl) rfl)
    (broadcast S196x16 c)

/-- The row of the projected image, spread over the sixteen classes, read at (s, j, d). -/
theorem spreadP_apply (P : FVec Ideal S196x1024 .f32) (s : Fin 196) (j : Fin 16) (d : Fin 1024) :
    broadcastTo S196x16x1024 (shapeCast S196x1x1024 P shapeCasts_S196x1024_S196x1x1024) broadcasts_S196x1x1024_S196x16x1024 (ix3 s j d)
      = P (ix2 s d) :=
  (broadcastTo_apply _ _ (ix3 s j d) (ix3 s (0 : Fin 1) d) (fun a => by
      match a with
      | ⟨0, _⟩ => rfl
      | ⟨1, _⟩ => rfl
      | ⟨2, _⟩ => rfl)).trans
    (shapeCast_apply P _ (ix3 s (0 : Fin 1) d) (ix2 s d) (by
      rw [Shape.rowMajor_val_two, Shape.rowMajor_val_three]
      show s.val * 1024 + d.val = (s.val * 1 + 0) * 1024 + d.val
      omega))

/-- The sixteen rows of the projected words from row o, spread over the positions, read at (s, j, d). -/
theorem spreadW_apply (o : Nat) (hs : S80x1024.Slices ![o, 0] S16x1024) (Wp : FVec Ideal S80x1024 .f32)
    (s : Fin 196) (j : Fin 16) (d : Fin 1024) (k : Fin 80) (hk : k.val = o + j.val) :
    broadcastTo S196x16x1024 (shapeCast S1x16x1024 (extractStridedSlice S16x1024 ![o, 0] Wp hs) shapeCasts_S16x1024_S1x16x1024)
      broadcasts_S1x16x1024_S196x16x1024 (ix3 s j d) = Wp (ix2 k d) :=
  (broadcastTo_apply _ _ (ix3 s j d) (ix3 (0 : Fin 1) j d) (fun a => by
      match a with
      | ⟨0, _⟩ => rfl
      | ⟨1, _⟩ => rfl
      | ⟨2, _⟩ => rfl)).trans
    ((shapeCast_ab_1ab_apply _ _ (0 : Fin 1) j d).trans (slice2_axis0_apply o Wp hs j d k hk))

/-- The folded vector, spread over positions and classes, read at (s, j, d). -/
theorem spreadV_apply (vv : FVec Ideal S1024 .f32) (s : Fin 196) (j : Fin 16) (d : Fin 1024) :
    broadcastTo S196x16x1024 (shapeCast S1x1x1024 vv shapeCasts_S1024_S1x1x1024) broadcasts_S1x1x1024_S196x16x1024 (ix3 s j d)
      = vv (ix1 d) :=
  (broadcastTo_apply _ _ (ix3 s j d) (ix3 (0 : Fin 1) (0 : Fin 1) d) (fun a => by
      match a with
      | ⟨0, _⟩ => rfl
      | ⟨1, _⟩ => rfl
      | ⟨2, _⟩ => rfl)).trans
    (shapeCast_apply vv _ (ix3 (0 : Fin 1) (0 : Fin 1) d) (ix1 d) (by
      rw [Shape.rowMajor_val_one, Shape.rowMajor_val_three]
      show d.val = (0 * 1 + 0) * 1024 + d.val
      omega))

/-- The bounded interaction at (s, j, d): tanh (P[s,d] · Wp[o+j,d]). -/
theorem tanhPart_apply (o : Nat) (hs : S80x1024.Slices ![o, 0] S16x1024) (P : FVec Ideal S196x1024 .f32) (Wp : FVec Ideal S80x1024 .f32)
    (s : Fin 196) (j : Fin 16) (d : Fin 1024) (k : Fin 80) (hk : k.val = o + j.val) :
    tanhPart o hs P Wp (ix3 s j d) = Ideal.tanh (P (ix2 s d) * Wp (ix2 k d)) := by
  unfold tanhPart
  show FloatOps.tanh (mulf _ _ (ix3 s j d)) = _
  rw [mulf_apply, spreadP_apply, spreadW_apply o hs Wp s j d k hk]
  rfl

/-- A finished part at (s, j): the sum over the features of the interaction times the folded vector, plus the constant. -/
theorem finish_apply (T : FVec Ideal S196x16x1024 .f32) (vv : FVec Ideal S1024 .f32) (c : Ideal .f32) (s : Fin 196) (j : Fin 16) :
    finish T vv c (ix2 s j) = (∑ d : Fin 1024, T (ix3 s j d) * vv (ix1 d)) + c := by
  unfold finish
  rw [addf_apply, broadcast_apply]
  refine congrArg (· + c) ?_
  refine (Ideal.multiReduction_add_single _ 0x00000000#32 reduces_S196x16x1024_S196x16 (.inl rfl) rfl (ix2 s j)).trans ?_
  refine Finset.sum_congr rfl fun (d : Fin 1024) _ => ?_
  have hl : reduces_S196x16x1024_S196x16.lift (ix2 s j) d = ix3 s j d := funext fun a => Fin.ext (by
    match a with
    | ⟨0, _⟩ => rfl
    | ⟨1, _⟩ => rfl
    | ⟨2, _⟩ => rfl)
  rw [hl, mulf_apply, spreadV_apply]

/-- A whole part at (s, j), for the class k = o + j. -/
theorem part_apply (o : Nat) (hs : S80x1024.Slices ![o, 0] S16x1024) (P : FVec Ideal S196x1024 .f32) (Wp : FVec Ideal S80x1024 .f32)
    (vv : FVec Ideal S1024 .f32) (c : Ideal .f32) (s : Fin 196) (j : Fin 16) (k : Fin 80) (hk : k.val = o + j.val) :
    finish (tanhPart o hs P Wp) vv c (ix2 s j)
      = (∑ d : Fin 1024, Ideal.tanh (P (ix2 s d) * Wp (ix2 k d)) * vv (ix1 d)) + c := by
  rw [finish_apply]
  refine congrArg (· + c) (Finset.sum_congr rfl fun d _ => ?_)
  rw [tanhPart_apply o hs P Wp s j d k hk]

/-! ## The five parts side by side -/

/-- Five blocks of sixteen classes glued along the class axis. -/
def cat5 (a b c d e : FVec Ideal S196x16 .f32) : FVec Ideal S196x80 .f32 :=
  concatenate S196x80 1 [⟨S196x16, a⟩, ⟨S196x16, b⟩, ⟨S196x16, c⟩, ⟨S196x16, d⟩, ⟨S196x16, e⟩]
    concatenates_S196x16_S196x16_S196x16_S196x16_S196x16_S196x80_d1

theorem cat5_at0 (a b c d e : FVec Ideal S196x16 .f32) (s : Fin 196) (j : Fin 16) (k : Fin 80) (hk : k.val = 0 + j.val) :
    cat5 a b c d e (ix2 s k) = a (ix2 s j) :=
  concatenate_apply_piece (t := S196x80) 1 _ _ (ix2 s k) 0 (by show 0 < 5; decide) S196x16 a rfl rfl 0 rfl (ix2 s j)
    (fun b hb => by
      match b, hb with
      | ⟨0, _⟩, _ => rfl
      | ⟨1, _⟩, hb => exact absurd rfl hb)
    (by show 0 + j.val = k.val; omega)

theorem cat5_at1 (a b c d e : FVec Ideal S196x16 .f32) (s : Fin 196) (j : Fin 16) (k : Fin 80) (hk : k.val = 16 + j.val) :
    cat5 a b c d e (ix2 s k) = b (ix2 s j) :=
  concatenate_apply_piece (t := S196x80) 1 _ _ (ix2 s k) 1 (by show 1 < 5; decide) S196x16 b rfl rfl 16 rfl (ix2 s j)
    (fun b hb => by
      match b, hb with
      | ⟨0, _⟩, _ => rfl
      | ⟨1, _⟩, hb => exact absurd rfl hb)
    (by show 16 + j.val = k.val; omega)

theorem cat5_at2 (a b c d e : FVec Ideal S196x16 .f32) (s : Fin 196) (j : Fin 16) (k : Fin 80) (hk : k.val = 32 + j.val) :
    cat5 a b c d e (ix2 s k) = c (ix2 s j) :=
  concatenate_apply_piece (t := S196x80) 1 _ _ (ix2 s k) 2 (by show 2 < 5; decide) S196x16 c rfl rfl 32 rfl (ix2 s j)
    (fun b hb => by
      match b, hb with
      | ⟨0, _⟩, _ => rfl
      | ⟨1, _⟩, hb => exact absurd rfl hb)
    (by show 32 + j.val = k.val; omega)

theorem cat5_at3 (a b c d e : FVec Ideal S196x16 .f32) (s : Fin 196) (j : Fin 16) (k : Fin 80) (hk : k.val = 48 + j.val) :
    cat5 a b c d e (ix2 s k) = d (ix2 s j) :=
  concatenate_apply_piece (t := S196x80) 1 _ _ (ix2 s k) 3 (by show 3 < 5; decide) S196x16 d rfl rfl 48 rfl (ix2 s j)
    (fun b hb => by
      match b, hb with
      | ⟨0, _⟩, _ => rfl
      | ⟨1, _⟩, hb => exact absurd rfl hb)
    (by show 48 + j.val = k.val; omega)

theorem cat5_at4 (a b c d e : FVec Ideal S196x16 .f32) (s : Fin 196) (j : Fin 16) (k : Fin 80) (hk : k.val = 64 + j.val) :
    cat5 a b c d e (ix2 s k) = e (ix2 s j) :=
  concatenate_apply_piece (t := S196x80) 1 _ _ (ix2 s k) 4 (by show 4 < 5; decide) S196x16 e rfl rfl 64 rfl (ix2 s j)
    (fun b hb => by
      match b, hb with
      | ⟨0, _⟩, _ => rfl
      | ⟨1, _⟩, hb => exact absurd rfl hb)
    (by show 64 + j.val = k.val; omega)

/-! ## The softmax over the positions -/

/-- The largest entry of each class's column, from minus infinity. -/
def colMax (cf : FVec Ideal S196x80 .f32) : FVec Ideal S80 .f32 :=
  multiReduction .maximumf [0] S80 cf 0xFF800000#32 reduces_S196x80_S80 (.inl rfl) rfl

/-- The exponential of each entry less its column's largest. -/
def shifted (cf : FVec Ideal S196x80 .f32) : FVec Ideal S196x80 .f32 :=
  exp (subf cf (broadcastTo S196x80 (shapeCast S1x80 (colMax cf) shapeCasts_S80_S1x80) broadcasts_S1x80_S196x80))

/-- Each shifted exponential over its column's sum, as a block of one image. -/
def tail (cf : FVec Ideal S196x80 .f32) : FVec Ideal S1x196x80 .f32 :=
  shapeCast S1x196x80
    (divf (shifted cf)
      (broadcastTo S196x80
        (shapeCast S1x80 (multiReduction .add [0] S80 (shifted cf) 0x00000000#32 reduces_S196x80_S80 (.inl rfl) rfl) shapeCasts_S80_S1x80)
        broadcasts_S1x80_S196x80))
    shapeCasts_S196x80_S1x196x80

theorem colMax_apply (cf : FVec Ideal S196x80 .f32) (k : Fin 80) :
    colMax cf (ix1 k) = Cert.Pool.smax1 (fun s k => cf (ix2 s k)) k := by
  unfold colMax Cert.Pool.smax1 Cert.Pool.negInf
  refine (Ideal.multiReduction_maximumf_single cf 0xFF800000#32 reduces_S196x80_S80 (.inl rfl) rfl (ix1 k)).trans ?_
  have hf : (cf ∘ reduces_S196x80_S80.lift (ix1 k)) = fun s : Fin 196 => cf (ix2 s k) :=
    funext fun s => congrArg cf (funext fun a => Fin.ext (by
      match a with
      | ⟨0, _⟩ => rfl
      | ⟨1, _⟩ => rfl))
  rw [hf]
  rfl

theorem shifted_apply (cf : FVec Ideal S196x80 .f32) (s : Fin 196) (k : Fin 80) :
    shifted cf (ix2 s k) = Cert.Pool.expo1 (fun s k => cf (ix2 s k)) s k := by
  unfold shifted Cert.Pool.expo1
  show FloatOps.exp (subf cf _ (ix2 s k)) = _
  rw [subf_apply, broadcastTo_1b_ab_apply, shapeCast_a_1a_apply, colMax_apply]
  rfl

/-- The tail at (0, s, k): the attention weight of position s for class k. -/
theorem tail_apply (cf : FVec Ideal S196x80 .f32) (s : Fin 196) (k : Fin 80) :
    tail cf (ix3 (0 : Fin 1) s k) = Cert.Pool.attn1 (fun s k => cf (ix2 s k)) s k := by
  unfold tail Cert.Pool.attn1
  rw [shapeCast_ab_1ab_apply, divf_apply, shifted_apply, broadcastTo_1b_ab_apply, shapeCast_a_1a_apply]
  refine congrArg (Ideal.div _) ?_
  refine (Ideal.multiReduction_add_single (shifted cf) 0x00000000#32 reduces_S196x80_S80 (.inl rfl) rfl (ix1 k)).trans ?_
  refine Finset.sum_congr rfl fun (s' : Fin 196) _ => ?_
  have hl : reduces_S196x80_S80.lift (ix1 k) s' = ix2 s' k := funext fun a => Fin.ext (by
    match a with
    | ⟨0, _⟩ => rfl
    | ⟨1, _⟩ => rfl)
  rw [hl, shifted_apply]

/-! ## The matrix product -/

theorem pay2_lhs0 (i : S196x1024.Idx) (q : dot_S196x2048_S1024x2048_S196x1024_1_1_0_0_n_n.contr.Idx) : (dot_S196x2048_S1024x2048_S196x1024_1_1_0_0_n_n.lhsIdx i q 0).val = (i 0).val := by
  unfold DotDims.lhsIdx
  rw [dif_neg (show ¬(0 : Fin S196x2048.rank) ∈ dot_S196x2048_S1024x2048_S196x1024_1_1_0_0_n_n.lhsBatch by decide), dif_pos (show (0 : Fin S196x2048.rank) ∈ dot_S196x2048_S1024x2048_S196x1024_1_1_0_0_n_n.lhsNonContracting by decide)]
  rfl
theorem pay2_lhs1 (i : S196x1024.Idx) (q : dot_S196x2048_S1024x2048_S196x1024_1_1_0_0_n_n.contr.Idx) : (dot_S196x2048_S1024x2048_S196x1024_1_1_0_0_n_n.lhsIdx i q 1).val = (q ⟨0, by decide⟩).val :=
  dot_S196x2048_S1024x2048_S196x1024_1_1_0_0_n_n.lhsIdx_val_of_single rfl i q
theorem pay2_rhs0 (i : S196x1024.Idx) (q : dot_S196x2048_S1024x2048_S196x1024_1_1_0_0_n_n.contr.Idx) : (dot_S196x2048_S1024x2048_S196x1024_1_1_0_0_n_n.rhsIdx i q 0).val = (i 1).val := by
  unfold DotDims.rhsIdx
  rw [dif_neg (show ¬(0 : Fin S1024x2048.rank) ∈ dot_S196x2048_S1024x2048_S196x1024_1_1_0_0_n_n.rhsBatch by decide), dif_pos (show (0 : Fin S1024x2048.rank) ∈ dot_S196x2048_S1024x2048_S196x1024_1_1_0_0_n_n.rhsNonContracting by decide)]
  rfl
theorem pay2_rhs1 (i : S196x1024.Idx) (q : dot_S196x2048_S1024x2048_S196x1024_1_1_0_0_n_n.contr.Idx) : (dot_S196x2048_S1024x2048_S196x1024_1_1_0_0_n_n.rhsIdx i q 1).val = (q ⟨0, by decide⟩).val :=
  dot_S196x2048_S1024x2048_S196x1024_1_1_0_0_n_n.rhsIdx_val_of_single rfl i q

/-- The projected image at (s, d): the sum over the channels of pixel times weight (rounding to the narrower format is
    the identity on the ideal values). -/
theorem pay2_apply (x0 : Vec Ideal S1x196x2048 .f32) (x2 : Vec Ideal S1024x2048 .bf16) (s : Fin 196) (d : Fin 1024) :
    k0_pay2 (F := Ideal) x0 x2 (ix2 s d) = ∑ c : Fin 2048, x0 (ix3 (0 : Fin 1) s c) * x2 (ix2 d c) := by
  unfold k0_pay2
  simp only [matmul]
  rw [Ideal.matmul_constant_zero_apply, ← Equiv.sum_comp (ValueIdx.contrEquiv1 dot_S196x2048_S1024x2048_S196x1024_1_1_0_0_n_n 2048 rfl rfl).symm]
  refine Finset.sum_congr rfl fun (c : Fin 2048) _ => ?_
  have hk := ValueIdx.contrEquiv1_symm_val dot_S196x2048_S1024x2048_S196x1024_1_1_0_0_n_n 2048 rfl rfl c
  have el : dot_S196x2048_S1024x2048_S196x1024_1_1_0_0_n_n.lhsIdx (ix2 s d) ((ValueIdx.contrEquiv1 dot_S196x2048_S1024x2048_S196x1024_1_1_0_0_n_n 2048 rfl rfl).symm c) = ix2 s c := funext fun a => Fin.ext (by
    match a with
    | ⟨0, _⟩ => exact pay2_lhs0 _ _
    | ⟨1, _⟩ => exact (pay2_lhs1 _ _).trans hk)
  have er : dot_S196x2048_S1024x2048_S196x1024_1_1_0_0_n_n.rhsIdx (ix2 s d) ((ValueIdx.contrEquiv1 dot_S196x2048_S1024x2048_S196x1024_1_1_0_0_n_n 2048 rfl rfl).symm c) = ix2 d c := funext fun a => Fin.ext (by
    match a with
    | ⟨0, _⟩ => exact pay2_rhs0 _ _
    | ⟨1, _⟩ => exact (pay2_rhs1 _ _).trans hk)
  rw [el, er, truncf_apply, shapeCast_1ab_ab_apply, shapeCast_self]

/-- The projected words are the loaded block itself. -/
theorem pay3_eq (x1 : Vec Ideal S80x1024 .f32) : k0_pay3 (F := Ideal) x1 = x1 := by
  unfold k0_pay3
  exact shapeCast_self x1 _

/-- The folded vector at d is the loaded row at (0, d). -/
theorem pay4_apply (x3 : Vec Ideal S1x1024 .f32) (d : Fin 1024) : k0_pay4 (F := Ideal) x3 (ix1 d) = x3 (ix2 (0 : Fin 1) d) := by
  unfold k0_pay4
  exact shapeCast_1a_a_apply x3 _ d

/-- The folded constant is the loaded block's one entry. -/
theorem pay5_eq (x4 : Vec Ideal S1x1 .f32) : k0_pay5 (F := Ideal) x4 = x4 (ix2 (0 : Fin 1) (0 : Fin 1)) := by
  unfold k0_pay5 extractAt
  exact congrArg x4 (funext fun a => Fin.ext (by
    match a with
    | ⟨0, _⟩ => rfl
    | ⟨1, _⟩ => rfl))

/-! ## The stored value as the tail of the five parts -/

/-- The body's payload is the softmax tail of the five parts side by side, each the finished interaction of the projected
    image with sixteen rows of the projected words. -/
theorem pay1_eq (x0 : Vec Ideal S1x196x2048 .f32) (x1 : Vec Ideal S80x1024 .f32) (x2 : Vec Ideal S1024x2048 .bf16)
    (x3 : Vec Ideal S1x1024 .f32) (x4 : Vec Ideal S1x1 .f32) :
    k0_pay1 (F := Ideal) (k0_pay2 x0 x2) (k0_pay3 x1) (k0_pay4 x3) (k0_pay5 x4) (k0_pay6 x0 x2 x1 x3 x4) (k0_pay7 x0 x2 x1 x3 x4)
        (k0_pay8 x0 x2 x1)
      = tail (cat5
          (finish (tanhPart 0 slices_S80x1024_o0_0_S16x1024 (k0_pay2 x0 x2) (k0_pay3 x1)) (k0_pay4 x3) (k0_pay5 x4))
          (finish (tanhPart 16 slices_S80x1024_o16_0_S16x1024 (k0_pay2 x0 x2) (k0_pay3 x1)) (k0_pay4 x3) (k0_pay5 x4))
          (finish (tanhPart 32 slices_S80x1024_o32_0_S16x1024 (k0_pay2 x0 x2) (k0_pay3 x1)) (k0_pay4 x3) (k0_pay5 x4))
          (finish (tanhPart 48 slices_S80x1024_o48_0_S16x1024 (k0_pay2 x0 x2) (k0_pay3 x1)) (k0_pay4 x3) (k0_pay5 x4))
          (finish (tanhPart 64 slices_S80x1024_o64_0_S16x1024 (k0_pay2 x0 x2) (k0_pay3 x1)) (k0_pay4 x3) (k0_pay5 x4))) := rfl

/-- The five parts side by side at (s, k): the coefficient of class k at position s, whichever part k falls in. -/
theorem block_apply (P : FVec Ideal S196x1024 .f32) (W : FVec Ideal S80x1024 .f32) (vv : FVec Ideal S1024 .f32) (c : Ideal .f32)
    (s : Fin 196) (k : Fin 80) :
    cat5
        (finish (tanhPart 0 slices_S80x1024_o0_0_S16x1024 P W) vv c)
        (finish (tanhPart 16 slices_S80x1024_o16_0_S16x1024 P W) vv c)
        (finish (tanhPart 32 slices_S80x1024_o32_0_S16x1024 P W) vv c)
        (finish (tanhPart 48 slices_S80x1024_o48_0_S16x1024 P W) vv c)
        (finish (tanhPart 64 slices_S80x1024_o64_0_S16x1024 P W) vv c) (ix2 s k)
      = (∑ d : Fin 1024, Ideal.tanh (P (ix2 s d) * W (ix2 k d)) * vv (ix1 d)) + c := by
  have hk80 : k.val < 80 := k.isLt
  by_cases h1 : k.val < 16
  · have e : k.val = 0 + (⟨k.val, h1⟩ : Fin 16).val := by show k.val = 0 + k.val; omega
    rw [cat5_at0 _ _ _ _ _ s ⟨k.val, h1⟩ k e, part_apply 0 _ P W vv c s ⟨k.val, h1⟩ k e]
  · by_cases h2 : k.val < 32
    · have e : k.val = 16 + (⟨k.val - 16, by omega⟩ : Fin 16).val := by show k.val = 16 + (k.val - 16); omega
      rw [cat5_at1 _ _ _ _ _ s ⟨k.val - 16, by omega⟩ k e, part_apply 16 _ P W vv c s ⟨k.val - 16, by omega⟩ k e]
    · by_cases h3 : k.val < 48
      · have e : k.val = 32 + (⟨k.val - 32, by omega⟩ : Fin 16).val := by show k.val = 32 + (k.val - 32); omega
        rw [cat5_at2 _ _ _ _ _ s ⟨k.val - 32, by omega⟩ k e, part_apply 32 _ P W vv c s ⟨k.val - 32, by omega⟩ k e]
      · by_cases h4 : k.val < 64
        · have e : k.val = 48 + (⟨k.val - 48, by omega⟩ : Fin 16).val := by show k.val = 48 + (k.val - 48); omega
          rw [cat5_at3 _ _ _ _ _ s ⟨k.val - 48, by omega⟩ k e, part_apply 48 _ P W vv c s ⟨k.val - 48, by omega⟩ k e]
        · have e : k.val = 64 + (⟨k.val - 64, by omega⟩ : Fin 16).val := by show k.val = 64 + (k.val - 64); omega
          rw [cat5_at4 _ _ _ _ _ s ⟨k.val - 64, by omega⟩ k e, part_apply 64 _ P W vv c s ⟨k.val - 64, by omega⟩ k e]

end Cert.KernelIdeal.Val

end
-- ==== Proof.K0Pay.lean ====
/-
  What the first kernel's body stores, entry by entry: the matrix product of the pixels with `W1`, the coefficient formed in five
  parts of sixteen classes and glued along the class axis, and the softmax over the 196 positions.
-/
import proofs.«131559_j55396488184259_2_alg».proof.Proof.Spec
import proofs.«131559_j55396488184259_2_alg».proof.Proof.K0Coef
import proofs.«131559_j55396488184259_2_alg».proof.Proof.Gen.KernelIdeal.Frame
import proofs.«131559_j55396488184259_2_alg».proof.Proof.K0PayLemmas

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable [Cert.KernelIdeal.Facts]

/-- What the first kernel's body stores, entry by entry: the softmax over positions of that coefficient. -/
theorem out0_5_apply (x0 : Vec Ideal S1x196x2048 .f32) (x1 : Vec Ideal S80x1024 .f32) (x2 : Vec Ideal S1024x2048 .bf16) (x3 : Vec Ideal S1x1024 .f32)
    (x4 : Vec Ideal S1x1 .f32) (s : Fin 196) (k : Fin 80) :
    out0_5 (F := Ideal) x0 x1 x2 x3 x4 (ix3 0 s k) = Cert.Pool.attn1 (coefB x0 x1 x2 x3 x4) s k := by
  -- the one store covers the whole buffer at zero offsets, and every load reads its whole block
  have hz3 : (![0, 0, 0] : Fin 3 → Nat) = fun _ => 0 := funext fun a => by
    match a with
    | ⟨0, _⟩ => rfl
    | ⟨1, _⟩ => rfl
    | ⟨2, _⟩ => rfl
  have hz2 : (![0, 0] : Fin 2 → Nat) = fun _ => 0 := funext fun a => by
    match a with
    | ⟨0, _⟩ => rfl
    | ⟨1, _⟩ => rfl
  unfold out0_5
  rw [View.canon_unit_zero hz3]
  simp only [View.ld_unit_zero (S := S1x196x2048) hz3, View.ld_unit_zero (S := S1024x2048) hz2,
    View.ld_unit_zero (S := S80x1024) hz2, View.ld_unit_zero (S := S1x1024) hz2, View.ld_unit_zero (S := S1x1) hz2]
  -- the stored value is the softmax tail of the five sixteen-class parts side by side
  rw [pay1_eq, tail_apply]
  refine congrArg (fun cf => Cert.Pool.attn1 cf s k) ?_
  funext s' k'
  -- each entry of the block is the coefficient, whichever part the class falls in
  rw [block_apply, pay3_eq, pay5_eq]
  unfold coefB
  congr 1
  refine Finset.sum_congr rfl fun d _ => ?_
  rw [pay2_apply, pay4_apply]

end Cert.KernelIdeal.Val

end
-- ==== Proof.K0Blocks.lean ====
/-
  From blocks to the array, for the first region: its grid has one point per image, point `b` reads image `b`'s pixels and the four
  whole parameter arrays and writes image `b`'s block of the weights array; the four blocks cover the array, so the array after the
  region is the weights array of the arrays the region was entered with, whatever those are.
-/
import proofs.«131559_j55396488184259_2_alg».proof.Proof.Spec
import proofs.«131559_j55396488184259_2_alg».proof.Proof.K0Coef
import Idealize.ShloMosaic.Lib.Pipeline.Value

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

/-- The printed index maps over the four grid points: the image block moves with the point, every weight window stays at block zero, and the result block moves with the point. -/
private theorem idxFacts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ t.val < 4 :=
  (by decide +kernel : ∀ t : Fin grid0.N, _)

/-- The coefficient of the loaded blocks is the coefficient of image `b` of the whole arrays, when each block holds the entries of its array that it was cut from. -/
private theorem coefB_eq_coefG (X : Cert.Pool.Arr ⟨3, ![4, 196, 2048]⟩) (Wp : Cert.Pool.Arr ⟨2, ![80, 1024]⟩) (Wb : Cert.Pool.Arr ⟨2, ![1024, 2048]⟩)
    (v : Cert.Pool.Arr ⟨2, ![1, 1024]⟩) (cc : Cert.Pool.Arr ⟨2, ![1, 1]⟩) (b : Fin 4)
    (x0 : Vec Ideal S1x196x2048 .f32) (x1 : Vec Ideal S80x1024 .f32) (x2 : Vec Ideal S1024x2048 .bf16) (x3 : Vec Ideal S1x1024 .f32) (x4 : Vec Ideal S1x1 .f32)
    (hx0 : ∀ (s : Fin 196) (ch : Fin 2048), x0 (ix3 0 s ch) = X (ix3 b s ch))
    (hx1 : ∀ (k : Fin 80) (d : Fin 1024), x1 (ix2 k d) = Wp (ix2 k d))
    (hx2 : ∀ (d : Fin 1024) (ch : Fin 2048), x2 (ix2 d ch) = Wb (ix2 d ch))
    (hx3 : ∀ d : Fin 1024, x3 (ix2 0 d) = v (ix2 0 d))
    (hx4 : x4 (ix2 0 0) = cc (ix2 0 0)) :
    coefB x0 x1 x2 x3 x4 = Cert.Pool.coefG X Wp Wb v cc b := by
  funext s k
  unfold coefB Cert.Pool.coefG
  simp only [hx0, hx1, hx2, hx3, hx4]

/-- An entry of the first window's block at point `t` is the entry of the image array in image `t`. -/
private theorem iblk0_0_apply (V : (c : Dev nD) → (b : Ref sig .tc) → Buf (Elt Ideal) ((c : Thread nD τ).loc b)) (c : Dev nD) (t : Fin cfg0.N)
    (x : S1x196x2048.Idx) (k : S4x196x2048.Idx)
    (hk0 : (k 0).val = t.val + (x 0).val) (hk1 : (k 1).val = (x 1).val) (hk2 : (k 2).val = (x 2).val) :
    (iblk0 (F := Ideal) V c 0 t : Vec Ideal S1x196x2048 .f32) x = (V c main_v1 : S4x196x2048.Idx → EReal) k := by
  obtain ⟨e0, e1, e2, -⟩ := idxFacts t
  unfold iblk0
  rw [View.read_apply]
  show V c main_v1 _ = V c main_v1 _
  congr 1
  funext a
  apply Fin.ext
  match a with
  | ⟨0, _⟩ => show win0_0.index t (0 : Fin 3) * 1 + 1 * (x 0).val = (k 0).val; rw [e0, hk0]; omega
  | ⟨1, _⟩ => show win0_0.index t (1 : Fin 3) * 196 + 1 * (x 1).val = (k 1).val; rw [e1, hk1]; omega
  | ⟨2, _⟩ => show win0_0.index t (2 : Fin 3) * 2048 + 1 * (x 2).val = (k 2).val; rw [e2, hk2]; omega

/-- An entry of window 1's block is the same entry of its whole array. -/
private theorem iblk0_1_apply (V : (c : Dev nD) → (b : Ref sig .tc) → Buf (Elt Ideal) ((c : Thread nD τ).loc b)) (c : Dev nD) (t : Fin cfg0.N)
    (x : S80x1024.Idx) (k : S80x1024.Idx) (hk0 : (k 0).val = (x 0).val) (hk1 : (k 1).val = (x 1).val) :
    (iblk0 (F := Ideal) V c 1 t : S80x1024.Idx → EReal) x = (V c main_v2 : S80x1024.Idx → EReal) k := by
  obtain ⟨-, -, -, e3, e4, e5, e6, e7, e8, e9, e10, -⟩ := idxFacts t
  unfold iblk0
  rw [View.read_apply]
  show V c main_v2 _ = V c main_v2 _
  congr 1
  funext a
  apply Fin.ext
  match a with
  | ⟨0, _⟩ => show win0_1.index t (0 : Fin 2) * 80 + 1 * (x 0).val = (k 0).val; rw [e3, hk0]; omega
  | ⟨1, _⟩ => show win0_1.index t (1 : Fin 2) * 1024 + 1 * (x 1).val = (k 1).val; rw [e4, hk1]; omega

/-- An entry of window 2's block is the same entry of its whole array. -/
private theorem iblk0_2_apply (V : (c : Dev nD) → (b : Ref sig .tc) → Buf (Elt Ideal) ((c : Thread nD τ).loc b)) (c : Dev nD) (t : Fin cfg0.N)
    (x : S1024x2048.Idx) (k : S1024x2048.Idx) (hk0 : (k 0).val = (x 0).val) (hk1 : (k 1).val = (x 1).val) :
    (iblk0 (F := Ideal) V c 2 t : S1024x2048.Idx → EReal) x = (V c main_v10 : S1024x2048.Idx → EReal) k := by
  obtain ⟨-, -, -, e3, e4, e5, e6, e7, e8, e9, e10, -⟩ := idxFacts t
  unfold iblk0
  rw [View.read_apply]
  show V c main_v10 _ = V c main_v10 _
  congr 1
  funext a
  apply Fin.ext
  match a with
  | ⟨0, _⟩ => show win0_2.index t (0 : Fin 2) * 1024 + 1 * (x 0).val = (k 0).val; rw [e5, hk0]; omega
  | ⟨1, _⟩ => show win0_2.index t (1 : Fin 2) * 2048 + 1 * (x 1).val = (k 1).val; rw [e6, hk1]; omega

/-- An entry of window 3's block is the same entry of its whole array. -/
private theorem iblk0_3_apply (V : (c : Dev nD) → (b : Ref sig .tc) → Buf (Elt Ideal) ((c : Thread nD τ).loc b)) (c : Dev nD) (t : Fin cfg0.N)
    (x : S1x1024.Idx) (k : S1x1024.Idx) (hk0 : (k 0).val = (x 0).val) (hk1 : (k 1).val = (x 1).val) :
    (iblk0 (F := Ideal) V c 3 t : S1x1024.Idx → EReal) x = (V c main_v3 : S1x1024.Idx → EReal) k := by
  obtain ⟨-, -, -, e3, e4, e5, e6, e7, e8, e9, e10, -⟩ := idxFacts t
  unfold iblk0
  rw [View.read_apply]
  show V c main_v3 _ = V c main_v3 _
  congr 1
  funext a
  apply Fin.ext
  match a with
  | ⟨0, _⟩ => show win0_3.index t (0 : Fin 2) * 1 + 1 * (x 0).val = (k 0).val; rw [e7, hk0]; omega
  | ⟨1, _⟩ => show win0_3.index t (1 : Fin 2) * 1024 + 1 * (x 1).val = (k 1).val; rw [e8, hk1]; omega

/-- An entry of window 4's block is the same entry of its whole array. -/
private theorem iblk0_4_apply (V : (c : Dev nD) → (b : Ref sig .tc) → Buf (Elt Ideal) ((c : Thread nD τ).loc b)) (c : Dev nD) (t : Fin cfg0.N)
    (x : S1x1.Idx) (k : S1x1.Idx) (hk0 : (k 0).val = (x 0).val) (hk1 : (k 1).val = (x 1).val) :
    (iblk0 (F := Ideal) V c 4 t : S1x1.Idx → EReal) x = (V c main_v9 : S1x1.Idx → EReal) k := by
  obtain ⟨-, -, -, e3, e4, e5, e6, e7, e8, e9, e10, -⟩ := idxFacts t
  unfold iblk0
  rw [View.read_apply]
  show V c main_v9 _ = V c main_v9 _
  congr 1
  funext a
  apply Fin.ext
  match a with
  | ⟨0, _⟩ => show win0_4.index t (0 : Fin 2) * 1 + 1 * (x 0).val = (k 0).val; rw [e9, hk0]; omega
  | ⟨1, _⟩ => show win0_4.index t (1 : Fin 2) * 1 + 1 * (x 1).val = (k 1).val; rw [e10, hk1]; omega

/-- A block whose entries are the softmax of a coefficient, read at any index of the block. -/
private theorem attn_block (o : Vec Ideal S1x196x80 .f32) (cf : Fin 196 → Fin 80 → EReal)
    (ho : ∀ (s : Fin 196) (k : Fin 80), o (ix3 0 s k) = Cert.Pool.attn1 cf s k) (y : S1x196x80.Idx) :
    o y = Cert.Pool.attn1 cf (y 1) (y 2) := by
  have h0 : @Eq (Fin 1) (y 0) 0 := Fin.ext (by have h : (y 0).val < 1 := (y 0).isLt; show (y 0).val = 0; omega)
  have hy : y = ix3 (0 : Fin 1) (y 1 : Fin 196) (y 2 : Fin 80) := by
    funext a; match a with | ⟨0, _⟩ => exact h0 | ⟨1, _⟩ => rfl | ⟨2, _⟩ => rfl
  exact (congrArg o hy).trans (ho (y 1) (y 2))

/-- What one grid point stores, entry by entry, is the weights array at the entry's place in image `b`, when the loaded blocks hold their arrays' entries. -/
private theorem point_eq (X : Cert.Pool.Arr ⟨3, ![4, 196, 2048]⟩) (Wp : Cert.Pool.Arr ⟨2, ![80, 1024]⟩) (Wb : Cert.Pool.Arr ⟨2, ![1024, 2048]⟩)
    (v : Cert.Pool.Arr ⟨2, ![1, 1024]⟩) (cc : Cert.Pool.Arr ⟨2, ![1, 1]⟩) (b : Fin 4)
    (x0 : Vec Ideal S1x196x2048 .f32) (x1 : Vec Ideal S80x1024 .f32) (x2 : Vec Ideal S1024x2048 .bf16) (x3 : Vec Ideal S1x1024 .f32) (x4 : Vec Ideal S1x1 .f32)
    (hx0 : ∀ (s : Fin 196) (ch : Fin 2048), x0 (ix3 0 s ch) = X (ix3 b s ch))
    (hx1 : ∀ (k : Fin 80) (d : Fin 1024), x1 (ix2 k d) = Wp (ix2 k d))
    (hx2 : ∀ (d : Fin 1024) (ch : Fin 2048), x2 (ix2 d ch) = Wb (ix2 d ch))
    (hx3 : ∀ d : Fin 1024, x3 (ix2 0 d) = v (ix2 0 d))
    (hx4 : x4 (ix2 0 0) = cc (ix2 0 0))
    (ho : ∀ (s : Fin 196) (k : Fin 80), out0_5 (F := Ideal) x0 x1 x2 x3 x4 (ix3 0 s k) = Cert.Pool.attn1 (coefB x0 x1 x2 x3 x4) s k)
    (y : S1x196x80.Idx) (i : S4x196x80.Idx) (hi0 : (i 0).val = b.val) (hi1 : (i 1).val = (y 1).val) (hi2 : (i 2).val = (y 2).val) :
    out0_5 (F := Ideal) x0 x1 x2 x3 x4 y = Cert.Pool.attnG X Wp Wb v cc i := by
  have e0 : (i 0 : Fin 4) = b := Fin.ext hi0
  have e1 : (i 1 : Fin 196) = (y 1 : Fin 196) := Fin.ext hi1
  have e2 : (i 2 : Fin 80) = (y 2 : Fin 80) := Fin.ext hi2
  refine (attn_block _ _ ho y).trans ?_
  rw [coefB_eq_coefG X Wp Wb v cc b x0 x1 x2 x3 x4 hx0 hx1 hx2 hx3 hx4]
  show _ = Cert.Pool.attn1 (Cert.Pool.coefG X Wp Wb v cc (i 0)) (i 1) (i 2)
  rw [e0, e1, e2]

/-- What point `t` writes back is block `t` of the weights array of the arrays the region was entered with. -/
private theorem flushed5_eq (V : (c : Dev nD) → (b : Ref sig .tc) → Buf (Elt Ideal) ((c : Thread nD τ).loc b)) (c : Dev nD)
    (hpay : ∀ (x0 : Vec Ideal S1x196x2048 .f32) (x1 : Vec Ideal S80x1024 .f32) (x2 : Vec Ideal S1024x2048 .bf16) (x3 : Vec Ideal S1x1024 .f32)
      (x4 : Vec Ideal S1x1 .f32) (s : Fin 196) (k : Fin 80),
      out0_5 (F := Ideal) x0 x1 x2 x3 x4 (ix3 0 s k) = Cert.Pool.attn1 (coefB x0 x1 x2 x3 x4) s k) (t : Fin cfg0.N) :
    (dat0 (F := Ideal) V c).flushed 5 t
      = ((cfg0.win 5).blk t).view.read (Elt Ideal) (Cert.Pool.attnG (V c main_v1) (V c main_v2) (V c main_v10) (V c main_v3) (V c main_v9)) := by
  obtain ⟨-, -, -, -, -, -, -, -, -, -, -, e11, e12, e13, hlt⟩ := idxFacts t
  show (cfg0.win 5).cut (grid0.coords t) ((dat0 V c).after 5 t) = _
  rw [after0_5]
  funext y
  have hy0 : (y 0).val < 1 := (y 0).isLt
  refine point_eq (V c main_v1) (V c main_v2) (V c main_v10) (V c main_v3) (V c main_v9) ⟨t.val, hlt⟩
    (iblk0 V c 0 t) (iblk0 V c 1 t) (iblk0 V c 2 t) (iblk0 V c 3 t) (iblk0 V c 4 t)
    (fun s ch => iblk0_0_apply V c t (ix3 0 s ch) (ix3 ⟨t.val, hlt⟩ s ch) rfl rfl rfl)
    (fun k d => iblk0_1_apply V c t (ix2 k d) (ix2 k d) rfl rfl)
    (fun d ch => iblk0_2_apply V c t (ix2 d ch) (ix2 d ch) rfl rfl)
    (fun d => iblk0_3_apply V c t (ix2 0 d) (ix2 0 d) rfl rfl)
    (iblk0_4_apply V c t (ix2 0 0) (ix2 0 0) rfl rfl)
    (hpay (iblk0 V c 0 t) (iblk0 V c 1 t) (iblk0 V c 2 t) (iblk0 V c 3 t) (iblk0 V c 4 t))
    y (((cfg0.win 5).blk t).view.emb y) ?_ ?_ ?_
  · show win0_5.index t (0 : Fin 3) * 1 + 1 * (y 0).val = t.val; rw [e11]; omega
  · show win0_5.index t (1 : Fin 3) * 196 + 1 * (y 1).val = (y 1).val; rw [e12]; omega
  · show win0_5.index t (2 : Fin 3) * 80 + 1 * (y 2).val = (y 2).val; rw [e13]; omega

/-- An index of the weights array is in point `t`'s block iff each coordinate is in the block's range on its axis. -/
private theorem mem_blk5 (t : Fin cfg0.N) (i : S4x196x80.Idx) :
    i ∈ ((cfg0.win 5).blk t).view.set ↔ ∀ a : Fin 3, win0_5.index t a * S1x196x80.size a ≤ (i a).val ∧ (i a).val < win0_5.index t a * S1x196x80.size a + S1x196x80.size a := by
  show i ∈ ((View.whole main_v11).slice (win0_5.rect t)).set ↔ _
  rw [View.set_slice_whole, Rect.mem_set_unit]
  exact Iff.rfl

/-- Every index of the weights array is in the block of the point numbered by its image. -/
private theorem cover5 (i : S4x196x80.Idx) : ∃ t : Fin cfg0.N, (cfg0.win 5).flush t = true ∧ i ∈ ((cfg0.win 5).blk t).view.set := by
  have hi0 : (i 0).val < 4 := (i 0).isLt
  have hi1 : (i 1).val < 196 := (i 1).isLt
  have hi2 : (i 2).val < 80 := (i 2).isLt
  obtain ⟨t, ht⟩ : ∃ t : Fin cfg0.N, t.val = (i 0).val := ⟨⟨(i 0).val, by rw [show cfg0.N = 4 from N_0]; exact hi0⟩, rfl⟩
  obtain ⟨-, -, -, -, -, -, -, -, -, -, -, e11, e12, e13, -⟩ := idxFacts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; rw [e11]; omega
  | ⟨1, _⟩ => show win0_5.index t (1 : Fin 3) * 196 ≤ (i 1).val ∧ (i 1).val < win0_5.index t (1 : Fin 3) * 196 + 196; rw [e12]; omega
  | ⟨2, _⟩ => show win0_5.index t (2 : Fin 3) * 80 ≤ (i 2).val ∧ (i 2).val < win0_5.index t (2 : Fin 3) * 80 + 80; rw [e13]; omega

variable [Cert.KernelIdeal.Facts]

/-- After the first region its result array is the weights array of the arrays it was entered with, given what the body stores entry by entry. -/
theorem arr0 (V : (c : Dev nD) → (b : Ref sig .tc) → Buf (Elt Ideal) ((c : Thread nD τ).loc b)) (c : Dev nD)
    (hpay : ∀ (x0 : Vec Ideal S1x196x2048 .f32) (x1 : Vec Ideal S80x1024 .f32) (x2 : Vec Ideal S1024x2048 .bf16) (x3 : Vec Ideal S1x1024 .f32)
      (x4 : Vec Ideal S1x1 .f32) (s : Fin 196) (k : Fin 80),
      out0_5 (F := Ideal) x0 x1 x2 x3 x4 (ix3 0 s k) = Cert.Pool.attn1 (coefB x0 x1 x2 x3 x4) s k) :
    (dat0 (F := Ideal) V c).arrAt 5 cfg0.N
      = Cert.Pool.attnG (V c main_v1) (V c main_v2) (V c main_v10) (V c main_v3) (V c main_v9) := by
  exact (dat0 (F := Ideal) V c).arrAt_eq_of_cover 5 (Cert.Pool.attnG (V c main_v1) (V c main_v2) (V c main_v10) (V c main_v3) (V c main_v9))
    (fun t _ => flushed5_eq V c hpay t) cover5

end Cert.KernelIdeal.Val

end
-- ==== Proof.K1.lean ====
/-
  From blocks to the array, for the second region: point `(b, j)` of its 4 × 7 grid reads rows `28 j … 28 j + 27` of image `b`'s pixels
  and weights and writes the same rows of the product array, pixel times weight; the 28 blocks cover the array.
-/
import proofs.«131559_j55396488184259_2_alg».proof.Proof.Spec
import proofs.«131559_j55396488184259_2_alg».proof.Proof.Gen.KernelIdeal.Frame
import Idealize.ShloMosaic.Lib.Pipeline.Value

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

/-! ## The second region's result array, from its blocks

The region runs over 4 × 7 points; point `t` handles image `t / 7` and the 28 rows `28 (t % 7) …` of that image: it
reads the pixel block `[1, 28, 1, 2048]` and the weight block `[1, 28, 1, 80]` and writes the block `[1, 28, 80, 2048]`
whose entry `(0, r, k, ch)` is pixel `(0, r, 0, ch)` times weight `(0, r, 0, k)`. The 28 blocks tile the result array. -/

/-- The product array: entry `(b, s, k, ch)` is pixel `(b, s, 0, ch)` times weight `(b, s, 0, k)`. -/
private def prod1 (X4 : S4x196x1x2048.Idx → EReal) (A4 : S4x196x1x80.Idx → EReal) : S4x196x80x2048.Idx → EReal :=
  fun i => X4 (ix4 (i 0) (i 1) 0 (i 3)) * A4 (ix4 (i 0) (i 1) 0 (i 2))

/-- The body's result block at an entry: the pixel block's entry times the weight block's entry. The casts only
    drop and add unit axes, so every row-major position is unchanged; the two broadcasts repeat the pixel row over the
    classes and the weight over the lanes. -/
private theorem pay1_apply (v0 : Vec Ideal S1x28x1x2048 .f32) (v2 : Vec Ideal S1x28x1x80 .f32)
    (z : Fin 1) (r : Fin 28) (k : Fin 80) (ch : Fin 2048) :
    k1_pay1 (F := Ideal) v0 v2 (ix4 z r k ch) = (v0 (ix4 0 r 0 ch) : EReal) * (v2 (ix4 0 r 0 k) : EReal) := by
  unfold k1_pay1
  refine (shapeCast_apply _ _ _ (ix3 r k ch) ?_).trans ?_
  · rw [Shape.rowMajor_val_three, Shape.rowMajor_val_four]
    show (r.val * 80 + k.val) * 2048 + ch.val = ((z.val * 28 + r.val) * 80 + k.val) * 2048 + ch.val
    have hz : z.val < 1 := z.isLt
    omega
  rw [mulf_apply]
  refine congrArg₂ (fun a b : EReal => a * b) ?_ ?_
  · refine (broadcastTo_apply _ _ _ (ix3 r 0 ch) ?_).trans ?_
    · intro a
      match a with
      | ⟨0, _⟩ => rfl
      | ⟨1, _⟩ => rfl
      | ⟨2, _⟩ => rfl
    refine (shapeCast_apply _ _ _ (ix2 r ch) ?_).trans ?_
    · rw [Shape.rowMajor_val_two, Shape.rowMajor_val_three]
      show r.val * 2048 + ch.val = (r.val * 1 + 0) * 2048 + ch.val
      omega
    refine shapeCast_apply _ _ _ (ix4 0 r 0 ch) ?_
    rw [Shape.rowMajor_val_four, Shape.rowMajor_val_two]
    show ((0 * 28 + r.val) * 1 + 0) * 2048 + ch.val = r.val * 2048 + ch.val
    omega
  · refine (broadcastTo_apply _ _ _ (ix3 r k 0) ?_).trans ?_
    · intro a
      match a with
      | ⟨0, _⟩ => rfl
      | ⟨1, _⟩ => rfl
      | ⟨2, _⟩ => rfl
    refine (shapeCast_apply _ _ _ (ix2 r k) ?_).trans ?_
    · rw [Shape.rowMajor_val_two, Shape.rowMajor_val_three]
      show r.val * 80 + k.val = (r.val * 80 + k.val) * 1 + 0
      omega
    refine shapeCast_apply _ _ _ (ix4 0 r 0 k) ?_
    rw [Shape.rowMajor_val_four, Shape.rowMajor_val_two]
    show ((0 * 28 + r.val) * 1 + 0) * 80 + k.val = r.val * 80 + k.val
    omega

/-- The body's result block at entry `j` is entry `i` of the product array, once the two input blocks read at
    `j`'s row and lane (resp. row and class) are the input arrays read at `i`'s. -/
private theorem point1_apply (x0 : Vec Ideal S1x28x1x2048 .f32) (x1 : Vec Ideal S1x28x1x80 .f32)
    (X : S4x196x1x2048.Idx → EReal) (A : S4x196x1x80.Idx → EReal)
    (j : S1x28x80x2048.Idx) (i : S4x196x80x2048.Idx)
    (h0 : x0 (ix4 0 (j 1) 0 (j 3)) = X (ix4 (i 0) (i 1) 0 (i 3)))
    (h1 : x1 (ix4 0 (j 1) 0 (j 2)) = A (ix4 (i 0) (i 1) 0 (i 2))) :
    k1_pay1 (F := Ideal) x0 x1 j = prod1 X A i := by
  refine (congrArg (k1_pay1 (F := Ideal) x0 x1) (eq_ix4 j)).trans ((pay1_apply x0 x1 (j 0) (j 1) (j 2) (j 3)).trans ?_)
  exact congrArg₂ (fun a b : EReal => a * b) h0 h1

private theorem hz1 : (![0, 0, 0, 0] : Fin 4 → Nat) = fun _ => 0 := funext fun a => by fin_cases a <;> rfl

/-- The printed index maps, decided over the grid: point `t` is image `t / 7`, row block `t % 7`, for all three windows. -/
private theorem idx_facts1 : ∀ t : Fin cfg1.N,
    win1_2.index t (0 : Fin 4) = t.val / 7 ∧ win1_2.index t (1 : Fin 4) = t.val % 7
    ∧ win1_2.index t (2 : Fin 4) = 0 ∧ win1_2.index t (3 : Fin 4) = 0
    ∧ win1_0.index t (0 : Fin 4) = t.val / 7 ∧ win1_0.index t (1 : Fin 4) = t.val % 7
    ∧ win1_0.index t (2 : Fin 4) = 0 ∧ win1_0.index t (3 : Fin 4) = 0
    ∧ win1_1.index t (0 : Fin 4) = t.val / 7 ∧ win1_1.index t (1 : Fin 4) = t.val % 7
    ∧ win1_1.index t (2 : Fin 4) = 0 ∧ win1_1.index t (3 : Fin 4) = 0 :=
  (by decide +kernel : ∀ t : Fin grid1.N, _)

/-- Every image and row block is some point's. -/
private theorem idx_onto1 : ∀ (b : Fin 4) (q : Fin 7), ∃ t : Fin cfg1.N, win1_2.index t = ![b.val, q.val, 0, 0] :=
  (by decide +kernel : ∀ (b : Fin 4) (q : Fin 7), ∃ t : Fin grid1.N, win1_2.index t = ![b.val, q.val, 0, 0])

/-- What point `t` writes back is block `t` of the product array of the two arrays as the region finds them. -/
private theorem flushed1_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (prod1 (V c main_v13) (V c main_v14)) := by
  show (cfg1.win 2).cut (grid1.coords t) ((dat1 (F := Ideal) V c).after 2 t) = _
  rw [after1_2]
  unfold out1_2
  rw [View.canon_unit_zero hz1]
  simp only [View.ld_unit_zero (S := S1x28x1x2048) hz1, View.ld_unit_zero (S := S1x28x1x80) hz1]
  obtain ⟨e20, e21, e22, e23, e00, e01, e02, e03, e10, e11, e12, e13⟩ := idx_facts1 t
  funext j
  show k1_pay1 (F := Ideal) (iblk1 V c 0 t) (iblk1 V c 1 t) j = prod1 (V c main_v13) (V c main_v14) (((cfg1.win 2).blk t).view.emb j)
  have hj0 : (j 0).val < 1 := (j 0).isLt
  refine point1_apply _ _ (V c main_v13) (V c main_v14) j _ ?_ ?_
  · show V c main_v13 (((cfg1.win 0).blk t).view.emb (ix4 0 (j 1) 0 (j 3))) = _
    refine congrArg (V c main_v13) (funext fun a => Fin.ext ?_)
    match a with
    | ⟨0, _⟩ => show win1_0.index t (0 : Fin 4) * 1 + 1 * 0 = win1_2.index t (0 : Fin 4) * 1 + 1 * (j 0).val; omega
    | ⟨1, _⟩ => show win1_0.index t (1 : Fin 4) * 28 + 1 * (j 1).val = win1_2.index t (1 : Fin 4) * 28 + 1 * (j 1).val; omega
    | ⟨2, _⟩ => show win1_0.index t (2 : Fin 4) * 1 + 1 * 0 = 0; omega
    | ⟨3, _⟩ => show win1_0.index t (3 : Fin 4) * 2048 + 1 * (j 3).val = win1_2.index t (3 : Fin 4) * 2048 + 1 * (j 3).val; omega
  · show V c main_v14 (((cfg1.win 1).blk t).view.emb (ix4 0 (j 1) 0 (j 2))) = _
    refine congrArg (V c main_v14) (funext fun a => Fin.ext ?_)
    match a with
    | ⟨0, _⟩ => show win1_1.index t (0 : Fin 4) * 1 + 1 * 0 = win1_2.index t (0 : Fin 4) * 1 + 1 * (j 0).val; omega
    | ⟨1, _⟩ => show win1_1.index t (1 : Fin 4) * 28 + 1 * (j 1).val = win1_2.index t (1 : Fin 4) * 28 + 1 * (j 1).val; omega
    | ⟨2, _⟩ => show win1_1.index t (2 : Fin 4) * 1 + 1 * 0 = 0; omega
    | ⟨3, _⟩ => show win1_1.index t (3 : Fin 4) * 80 + 1 * (j 2).val = win1_2.index t (2 : Fin 4) * 80 + 1 * (j 2).val; omega

/-- An index of the result array is in point `t`'s block iff each coordinate is in the block's range on its axis. -/
private theorem mem_blk1 (t : Fin cfg1.N) (i : S4x196x80x2048.Idx) :
    i ∈ ((cfg1.win 2).blk t).view.set ↔ ∀ a : Fin 4, win1_2.index t a * S1x28x80x2048.size a ≤ (i a).val ∧ (i a).val < win1_2.index t a * S1x28x80x2048.size a + S1x28x80x2048.size a := by
  show i ∈ ((View.whole main_v15).slice (win1_2.rect t)).set ↔ _
  rw [View.set_slice_whole, Rect.mem_set_unit]
  exact Iff.rfl

/-- The blocks tile the result array: row `s` of image `b` is in the block of the point with image `b` and row block `s / 28`. -/
private theorem cover1 (i : S4x196x80x2048.Idx) :
    ∃ t : Fin cfg1.N, (cfg1.win 2).flush t = true ∧ i ∈ ((cfg1.win 2).blk t).view.set := by
  have hi0 : (i 0).val < 4 := (i 0).isLt
  have hi1 : (i 1).val < 196 := (i 1).isLt
  have hi2 : (i 2).val < 80 := (i 2).isLt
  have hi3 : (i 3).val < 2048 := (i 3).isLt
  obtain ⟨t, ht⟩ := idx_onto1 ⟨(i 0).val, hi0⟩ ⟨(i 1).val / 28, by omega⟩
  have q0 : win1_2.index t (0 : Fin 4) = (i 0).val := congrFun ht 0
  have q1 : win1_2.index t (1 : Fin 4) = (i 1).val / 28 := congrFun ht 1
  have q2 : win1_2.index t (2 : Fin 4) = 0 := congrFun ht 2
  have q3 : win1_2.index t (3 : Fin 4) = 0 := congrFun ht 3
  refine ⟨t, flush1_2 t, ?_⟩
  rw [mem_blk1]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 28 ≤ (i 1).val ∧ (i 1).val < win1_2.index t (1 : Fin 4) * 28 + 28; omega
  | ⟨2, _⟩ => show win1_2.index t (2 : Fin 4) * 80 ≤ (i 2).val ∧ (i 2).val < win1_2.index t (2 : Fin 4) * 80 + 80; omega
  | ⟨3, _⟩ => show win1_2.index t (3 : Fin 4) * 2048 ≤ (i 3).val ∧ (i 3).val < win1_2.index t (3 : Fin 4) * 2048 + 2048; omega

/-- So the result array ends holding the product array. -/
private theorem final1 (V : (c : Dev nD) → (b : Ref sig .tc) → Buf (Elt Ideal) ((c : Thread nD τ).loc b)) (c : Dev nD) :
    (dat1 (F := Ideal) V c).arrAt 2 cfg1.N = prod1 (V c main_v13) (V c main_v14) :=
  (dat1 (F := Ideal) V c).arrAt_eq_of_cover 2 (prod1 (V c main_v13) (V c main_v14)) (fun t _ => flushed1_eq V c t) cover1

variable [Cert.KernelIdeal.Facts]

/-- Pixel times weight, from the two arrays the second region reads (each with a unit axis). -/
def fwcG (X4 : S4x196x1x2048.Idx → EReal) (A4 : S4x196x1x80.Idx → EReal) : S4x196x80x2048.Idx → EReal :=
  fun i => X4 (ix4 (i 0) (i 1) 0 (i 3)) * A4 (ix4 (i 0) (i 1) 0 (i 2))

/-- After the second region its result array holds, entry by entry, the pixel times the weight. -/
theorem arr1 (V : (c : Dev nD) → (b : Ref sig .tc) → Buf (Elt Ideal) ((c : Thread nD τ).loc b)) (c : Dev nD) :
    (dat1 (F := Ideal) V c).arrAt 2 cfg1.N = fwcG (V c main_v13) (V c main_v14) :=
  final1 V c

end Cert.KernelIdeal.Val

end
-- ==== Proof.KHostPre.lean ====
/-
  The host lines before the first region, read at an index: the image with channels moved last and its two position axes merged (the
  pixels), the word vectors projected by `W2`, `W1` in a narrower format (the identity on extended reals), the vector `W4 · W3` and
  the scalar `b3 · W4 + b4`.
-/
import proofs.«131559_j55396488184259_2_alg».proof.Proof.Spec
import proofs.«131559_j55396488184259_2_alg».proof.Proof.Gen.KernelIdeal.Frame
import Idealize.ShloMosaic.Lib.Pipeline.Value

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable [Cert.KernelIdeal.Facts]

/-- The argument arrays in a valuation of the buffers. -/
def insW (W : Valuation τ sig (Elt Ideal)) : Cert.Pool.Inputs :=
  ⟨W (Proc.devRef .tc main_arg0), W (Proc.devRef .tc main_arg1), W (Proc.devRef .tc main_arg2), W (Proc.devRef .tc main_arg3), W (Proc.devRef .tc main_arg4), W (Proc.devRef .tc main_arg5), W (Proc.devRef .tc main_arg6), W (Proc.devRef .tc main_arg7)⟩

/-! ## The pixels: channels moved last, then the two position axes merged -/

/-- The pixels, as the two host lines form them. -/
private def pixT (x0 : FVec Ideal S4x2048x14x14 .f32) : FVec Ideal S4x196x2048 .f32 :=
  shapeCast S4x196x2048 (transpose S4x14x14x2048 [0, 2, 3, 1] x0 transposes_S4x2048x14x14_S4x14x14x2048_0_2_3_1) shapeCasts_S4x14x14x2048_S4x196x2048

private theorem run_v1 (W : Valuation τ sig (Elt Ideal)) :
    StableHlo.after (hostOps0 (F := Ideal)) W (Proc.devRef .tc main_v1) = pixT (W (Proc.devRef .tc main_arg0)) := by
  show StableHlo.after hostOps0 W _ = _
  dsimp only [hostOps0]
  after_results_simp
  rfl

/-- Flat position `s` of the merged axis is row `s / 14`, column `s % 14`; the channel comes from the second axis. -/
private theorem pixT_apply (x0 : FVec Ideal S4x2048x14x14 .f32) (b : Fin 4) (s : Fin 196) (c : Fin 2048) :
    pixT x0 (ix3 b s c) = x0 (ix4 b c (Cert.Pool.hOf s) (Cert.Pool.wOf s)) := by
  unfold pixT
  rw [shapeCast_apply _ shapeCasts_S4x14x14x2048_S4x196x2048 (ix3 b s c) (ix4 b (Cert.Pool.hOf s) (Cert.Pool.wOf s) c) (by
    rewrite [Shape.rowMajor_val_four, Shape.rowMajor_val_three]
    have hs : s.val < 196 := s.isLt
    show ((b.val * 14 + s.val / 14) * 14 + s.val % 14) * 2048 + c.val = (b.val * 196 + s.val) * 2048 + c.val
    omega)]
  exact transpose_apply [0, 2, 3, 1] x0 transposes_S4x2048x14x14_S4x14x14x2048_0_2_3_1 _ (ix4 b c (Cert.Pool.hOf s) (Cert.Pool.wOf s)) (fun a => match a with
    | ⟨0, _⟩ => rfl
    | ⟨1, _⟩ => rfl
    | ⟨2, _⟩ => rfl
    | ⟨3, _⟩ => rfl)

/-- The host lines before the first region leave the pixels, the projected words, `W1`, the folded vector and the folded scalar. -/
theorem pre_v1 (W : Valuation τ sig (Elt Ideal)) : StableHlo.after (hostOps0 (F := Ideal)) W (Proc.devRef .tc main_v1) = Cert.Pool.pixArr (insW W) := by
  rw [run_v1]
  funext i
  rw [eq_ix3 i]
  exact pixT_apply _ _ _ _

/-! ## The weight matrix: a conversion, the identity on extended reals -/

private theorem run_v10 (W : Valuation τ sig (Elt Ideal)) :
    StableHlo.after (hostOps0 (F := Ideal)) W (Proc.devRef .tc main_v10)
      = (truncf .bf16 (W (Proc.devRef .tc main_arg2) : FVec Ideal S1024x2048 .f32) bitsLt_bf16_f32 : FVec Ideal S1024x2048 .bf16) := by
  show StableHlo.after hostOps0 W _ = _
  dsimp only [hostOps0]
  after_results_simp

/-! ## The projected words: one contraction -/

/-- The words times the transposed second weight matrix, as the host line forms it. -/
private def wprojT (x1 : FVec Ideal S80x300 .f32) (x3 : FVec Ideal S1024x300 .f32) : FVec Ideal S80x1024 .f32 :=
  Host.dotGeneral (F := Ideal) dot_S80x300_S1024x300_S80x1024_1_1_0_0_n_n none x1 x3

private theorem run_v2 (W : Valuation τ sig (Elt Ideal)) :
    StableHlo.after (hostOps0 (F := Ideal)) W (Proc.devRef .tc main_v2)
      = wprojT (W (Proc.devRef .tc main_arg1)) (W (Proc.devRef .tc main_arg3)) := by
  show StableHlo.after hostOps0 W _ = _
  dsimp only [hostOps0]
  after_results_simp
  rfl

private theorem lhs_v2_0 (i : S80x1024.Idx) (q : dot_S80x300_S1024x300_S80x1024_1_1_0_0_n_n.contr.Idx) :
    (dot_S80x300_S1024x300_S80x1024_1_1_0_0_n_n.lhsIdx i q 0).val = (i 0).val := by
  unfold DotDims.lhsIdx
  rw [dif_neg (show ¬(0 : Fin S80x300.rank) ∈ dot_S80x300_S1024x300_S80x1024_1_1_0_0_n_n.lhsBatch by decide), dif_pos (show (0 : Fin S80x300.rank) ∈ dot_S80x300_S1024x300_S80x1024_1_1_0_0_n_n.lhsNonContracting by decide)]
  rfl
private theorem lhs_v2_1 (i : S80x1024.Idx) (q : dot_S80x300_S1024x300_S80x1024_1_1_0_0_n_n.contr.Idx) :
    (dot_S80x300_S1024x300_S80x1024_1_1_0_0_n_n.lhsIdx i q 1).val = (q ⟨0, by decide⟩).val :=
  dot_S80x300_S1024x300_S80x1024_1_1_0_0_n_n.lhsIdx_val_of_single rfl i q
private theorem rhs_v2_0 (i : S80x1024.Idx) (q : dot_S80x300_S1024x300_S80x1024_1_1_0_0_n_n.contr.Idx) :
    (dot_S80x300_S1024x300_S80x1024_1_1_0_0_n_n.rhsIdx i q 0).val = (i 1).val := by
  unfold DotDims.rhsIdx
  rw [dif_neg (show ¬(0 : Fin S1024x300.rank) ∈ dot_S80x300_S1024x300_S80x1024_1_1_0_0_n_n.rhsBatch by decide), dif_pos (show (0 : Fin S1024x300.rank) ∈ dot_S80x300_S1024x300_S80x1024_1_1_0_0_n_n.rhsNonContracting by decide)]
  rfl
private theorem rhs_v2_1 (i : S80x1024.Idx) (q : dot_S80x300_S1024x300_S80x1024_1_1_0_0_n_n.contr.Idx) :
    (dot_S80x300_S1024x300_S80x1024_1_1_0_0_n_n.rhsIdx i q 1).val = (q ⟨0, by decide⟩).val :=
  dot_S80x300_S1024x300_S80x1024_1_1_0_0_n_n.rhsIdx_val_of_single rfl i q

/-- An entry of the product of the words with the transposed second weight matrix. -/
private theorem wprojT_apply (x1 : FVec Ideal S80x300 .f32) (x3 : FVec Ideal S1024x300 .f32) (k : Fin 80) (d : Fin 1024) :
    wprojT x1 x3 (ix2 k d) = ∑ v : Fin 300, x1 (ix2 k v) * x3 (ix2 d v) := by
  unfold wprojT
  simp only [Host.dotGeneral]
  rw [Ideal.dotGeneral_apply, ← Equiv.sum_comp (ValueIdx.contrEquiv1 dot_S80x300_S1024x300_S80x1024_1_1_0_0_n_n 300 rfl rfl).symm]
  refine Finset.sum_congr rfl fun v _ => ?_
  have hv := ValueIdx.contrEquiv1_symm_val dot_S80x300_S1024x300_S80x1024_1_1_0_0_n_n 300 rfl rfl v
  have el : dot_S80x300_S1024x300_S80x1024_1_1_0_0_n_n.lhsIdx (ix2 k d) ((ValueIdx.contrEquiv1 dot_S80x300_S1024x300_S80x1024_1_1_0_0_n_n 300 rfl rfl).symm v) = ix2 k v := funext fun a => Fin.ext (by
    match a with
    | ⟨0, _⟩ => exact lhs_v2_0 _ _
    | ⟨1, _⟩ => exact (lhs_v2_1 _ _).trans hv)
  have er : dot_S80x300_S1024x300_S80x1024_1_1_0_0_n_n.rhsIdx (ix2 k d) ((ValueIdx.contrEquiv1 dot_S80x300_S1024x300_S80x1024_1_1_0_0_n_n 300 rfl rfl).symm v) = ix2 d v := funext fun a => Fin.ext (by
    match a with
    | ⟨0, _⟩ => exact rhs_v2_0 _ _
    | ⟨1, _⟩ => exact (rhs_v2_1 _ _).trans hv)
  rw [el, er]

theorem pre_v2 (W : Valuation τ sig (Elt Ideal)) : StableHlo.after (hostOps0 (F := Ideal)) W (Proc.devRef .tc main_v2) = Cert.Pool.wprojArr (insW W) := by
  rw [run_v2]
  funext i
  rw [eq_ix2 i]
  exact wprojT_apply _ _ _ _

theorem pre_v10 (W : Valuation τ sig (Elt Ideal)) : StableHlo.after (hostOps0 (F := Ideal)) W (Proc.devRef .tc main_v10) = (insW W).W1 := by
  rw [run_v10]
  rfl

/-! ## The folded vector: the last weight row times the third weight matrix -/

/-- The last weight row times the third weight matrix, as the host line forms it. -/
private def vT (x6 : FVec Ideal S1x1024 .f32) (x4 : FVec Ideal S1024x1024 .f32) : FVec Ideal S1x1024 .f32 :=
  Host.dotGeneral (F := Ideal) dot_S1x1024_S1024x1024_S1x1024_1_0_0_1_n_n none x6 x4

private theorem run_v3 (W : Valuation τ sig (Elt Ideal)) :
    StableHlo.after (hostOps0 (F := Ideal)) W (Proc.devRef .tc main_v3)
      = vT (W (Proc.devRef .tc main_arg6)) (W (Proc.devRef .tc main_arg4)) := by
  show StableHlo.after hostOps0 W _ = _
  dsimp only [hostOps0]
  after_results_simp
  rfl

private theorem lhs_v3_0 (i : S1x1024.Idx) (q : dot_S1x1024_S1024x1024_S1x1024_1_0_0_1_n_n.contr.Idx) :
    (dot_S1x1024_S1024x1024_S1x1024_1_0_0_1_n_n.lhsIdx i q 0).val = (i 0).val := by
  unfold DotDims.lhsIdx
  rw [dif_neg (show ¬(0 : Fin S1x1024.rank) ∈ dot_S1x1024_S1024x1024_S1x1024_1_0_0_1_n_n.lhsBatch by decide), dif_pos (show (0 : Fin S1x1024.rank) ∈ dot_S1x1024_S1024x1024_S1x1024_1_0_0_1_n_n.lhsNonContracting by decide)]
  rfl
private theorem lhs_v3_1 (i : S1x1024.Idx) (q : dot_S1x1024_S1024x1024_S1x1024_1_0_0_1_n_n.contr.Idx) :
    (dot_S1x1024_S1024x1024_S1x1024_1_0_0_1_n_n.lhsIdx i q 1).val = (q ⟨0, by decide⟩).val :=
  dot_S1x1024_S1024x1024_S1x1024_1_0_0_1_n_n.lhsIdx_val_of_single rfl i q
private theorem rhs_v3_0 (i : S1x1024.Idx) (q : dot_S1x1024_S1024x1024_S1x1024_1_0_0_1_n_n.contr.Idx) :
    (dot_S1x1024_S1024x1024_S1x1024_1_0_0_1_n_n.rhsIdx i q 0).val = (q ⟨0, by decide⟩).val :=
  dot_S1x1024_S1024x1024_S1x1024_1_0_0_1_n_n.rhsIdx_val_of_single rfl i q
private theorem rhs_v3_1 (i : S1x1024.Idx) (q : dot_S1x1024_S1024x1024_S1x1024_1_0_0_1_n_n.contr.Idx) :
    (dot_S1x1024_S1024x1024_S1x1024_1_0_0_1_n_n.rhsIdx i q 1).val = (i 1).val := by
  unfold DotDims.rhsIdx
  rw [dif_neg (show ¬(1 : Fin S1024x1024.rank) ∈ dot_S1x1024_S1024x1024_S1x1024_1_0_0_1_n_n.rhsBatch by decide), dif_pos (show (1 : Fin S1024x1024.rank) ∈ dot_S1x1024_S1024x1024_S1x1024_1_0_0_1_n_n.rhsNonContracting by decide)]
  rfl

/-- An entry of the folded vector. -/
private theorem vT_apply (x6 : FVec Ideal S1x1024 .f32) (x4 : FVec Ideal S1024x1024 .f32) (z : Fin 1) (d : Fin 1024) :
    vT x6 x4 (ix2 z d) = ∑ e : Fin 1024, x6 (ix2 z e) * x4 (ix2 e d) := by
  unfold vT
  simp only [Host.dotGeneral]
  rw [Ideal.dotGeneral_apply, ← Equiv.sum_comp (ValueIdx.contrEquiv1 dot_S1x1024_S1024x1024_S1x1024_1_0_0_1_n_n 1024 rfl rfl).symm]
  refine Finset.sum_congr rfl fun e _ => ?_
  have he := ValueIdx.contrEquiv1_symm_val dot_S1x1024_S1024x1024_S1x1024_1_0_0_1_n_n 1024 rfl rfl e
  have el : dot_S1x1024_S1024x1024_S1x1024_1_0_0_1_n_n.lhsIdx (ix2 z d) ((ValueIdx.contrEquiv1 dot_S1x1024_S1024x1024_S1x1024_1_0_0_1_n_n 1024 rfl rfl).symm e) = ix2 z e := funext fun a => Fin.ext (by
    match a with
    | ⟨0, _⟩ => exact lhs_v3_0 _ _
    | ⟨1, _⟩ => exact (lhs_v3_1 _ _).trans he)
  have er : dot_S1x1024_S1024x1024_S1x1024_1_0_0_1_n_n.rhsIdx (ix2 z d) ((ValueIdx.contrEquiv1 dot_S1x1024_S1024x1024_S1x1024_1_0_0_1_n_n 1024 rfl rfl).symm e) = ix2 e d := funext fun a => Fin.ext (by
    match a with
    | ⟨0, _⟩ => exact (rhs_v3_0 _ _).trans he
    | ⟨1, _⟩ => exact rhs_v3_1 _ _)
  rw [el, er]

theorem pre_v3 (W : Valuation τ sig (Elt Ideal)) : StableHlo.after (hostOps0 (F := Ideal)) W (Proc.devRef .tc main_v3) = Cert.Pool.vArr (insW W) := by
  rw [run_v3]
  funext i
  have hi : i = ix2 (0 : Fin 1) (i 1) := by
    funext a
    match a with
    | ⟨0, _⟩ => exact Fin.ext (by have h : (i 0).val < 1 := (i 0).isLt; show (i 0).val = 0; omega)
    | ⟨1, _⟩ => rfl
  rw [hi]
  exact vT_apply _ _ _ _

/-! ## The folded scalar: the bias row times the last weight row, summed, plus the last bias -/

/-- The folded scalar, as the host lines form it. -/
private def cT (x5 : FVec Ideal S1024 .f32) (x6 : FVec Ideal S1x1024 .f32) (x7 : FVec Ideal S1 .f32) : FVec Ideal S1x1 .f32 :=
  shapeCast S1x1
    (addf
      (Host.reduceAdd (F := Ideal) (mulf x5 (shapeCast S1024 x6 shapeCasts_S1x1024_S1024)) (constant (F := Ideal) S_ .f32 0x00000000#32) reducesTo_S1024_S_d0 h_S_)
      (shapeCast S_ x7 shapeCasts_S1_S_))
    shapeCasts_S_S1x1

private theorem run_v9 (W : Valuation τ sig (Elt Ideal)) :
    StableHlo.after (hostOps0 (F := Ideal)) W (Proc.devRef .tc main_v9)
      = cT (W (Proc.devRef .tc main_arg5)) (W (Proc.devRef .tc main_arg6)) (W (Proc.devRef .tc main_arg7)) := by
  show StableHlo.after hostOps0 W _ = _
  dsimp only [hostOps0]
  after_results_simp
  rfl

/-- A rank-1 index set is its coordinate range, so a sum over it is the sum over the coordinate. -/
private theorem sum_idx1 {n : Nat} (f : (⟨1, ![n]⟩ : Shape).Idx → EReal) : ∑ i, f i = ∑ e : Fin n, f (ix1 e) :=
  (Equiv.sum_comp (⟨fun e => ix1 e, fun i => i 0, fun _ => rfl, fun i => (eq_ix1 i).symm⟩ : Fin n ≃ (⟨1, ![n]⟩ : Shape).Idx) f).symm

/-- The last weight row as a vector: entry `e` is entry `(0, e)`. -/
private theorem row_apply (x6 : FVec Ideal S1x1024 .f32) (e : Fin 1024) :
    (shapeCast S1024 x6 shapeCasts_S1x1024_S1024 : FVec Ideal S1024 .f32) (ix1 e) = x6 (ix2 0 e) :=
  shapeCast_apply x6 shapeCasts_S1x1024_S1024 (ix1 e) (ix2 0 e) (by
    rewrite [Shape.rowMajor_val_two, Shape.rowMajor_val_one]
    show 0 * 1024 + e.val = e.val
    omega)

/-- The sum over the 1024 entries into the scalar shape, from zero. -/
private theorem sum_apply (y : FVec Ideal S1024 .f32) (j : S_.Idx) :
    (Host.reduceAdd (F := Ideal) y (constant (F := Ideal) S_ .f32 0x00000000#32) reducesTo_S1024_S_d0 h_S_ : FVec Ideal S_ .f32) j
      = ∑ e : Fin 1024, y (ix1 e) := by
  unfold Host.reduceAdd
  rw [Ideal.hostReduceAdd_def, Ideal.hostReduceAdd_total reducesTo_S1024_S_d0 (fun b => b.elim0)]
  show Ideal.ofBits .f32 0x00000000#32 + _ = _
  rw [Ideal.ofBits_zero_f32, zero_add]
  exact sum_idx1 y

/-- The folded scalar's one entry. -/
private theorem cT_apply (x5 : FVec Ideal S1024 .f32) (x6 : FVec Ideal S1x1024 .f32) (x7 : FVec Ideal S1 .f32) (j : S1x1.Idx) :
    cT x5 x6 x7 j = (∑ e : Fin 1024, x5 (ix1 e) * x6 (ix2 0 e)) + x7 (ix1 0) := by
  unfold cT
  rw [shapeCast_apply _ shapeCasts_S_S1x1 j ix0 (by
    have h1 : (S_.rowMajor ix0).val < 1 := (S_.rowMajor ix0).isLt
    have h2 : (S1x1.rowMajor j).val < 1 := (S1x1.rowMajor j).isLt
    omega)]
  rw [addf_apply, sum_apply]
  rw [shapeCast_apply x7 shapeCasts_S1_S_ ix0 (ix1 0) (by
    have h1 : (S_.rowMajor ix0).val < 1 := (S_.rowMajor ix0).isLt
    have h2 : (S1.rowMajor (ix1 0)).val < 1 := (S1.rowMajor (ix1 0)).isLt
    omega)]
  refine congrArg (· + x7 (ix1 0)) (Finset.sum_congr rfl fun e _ => ?_)
  rw [mulf_apply, row_apply]

theorem pre_v9 (W : Valuation τ sig (Elt Ideal)) : StableHlo.after (hostOps0 (F := Ideal)) W (Proc.devRef .tc main_v9) = Cert.Pool.cArr (insW W) := by
  rw [run_v9]
  funext j
  exact cT_apply _ _ _ j

end Cert.KernelIdeal.Val

end
-- ==== Proof.KHostTail.lean ====
/-
  The host lines between and after the two regions, read at an index: re-layings that insert a unit axis or split the 196 positions
  into 14 rows of 14 columns, and the batched contraction over the positions, the sum of weight times pixel.
-/
import proofs.«131559_j55396488184259_2_alg».proof.Proof.Spec
import Idealize.ShloMosaic.Lib.Pipeline.Value
import proofs.«131559_j55396488184259_2_alg».proof.Proof.Gen.KernelIdeal.Frame

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable [Cert.KernelIdeal.Facts]

/-- Inserting a unit axis: position `(b, s, 0, c)` of the longer array is position `(b, s, c)` of the shorter. -/
private theorem cast_v13 (y : S4x196x2048.Idx → EReal) (i : S4x196x1x2048.Idx) :
    shapeCast S4x196x1x2048 y shapeCasts_S4x196x2048_S4x196x1x2048 i = y (ix3 (i 0) (i 1) (i 3)) :=
  shapeCast_apply y shapeCasts_S4x196x2048_S4x196x1x2048 i (ix3 (i 0) (i 1) (i 3))
    (by rewrite [Shape.rowMajor_val_three, Shape.rowMajor_val_four]
        have h0 : (i 0).val < 4 := (i 0).isLt; have h1 : (i 1).val < 196 := (i 1).isLt; have h2 : (i 2).val < 1 := (i 2).isLt; have h3 : (i 3).val < 2048 := (i 3).isLt
        show ((i 0).val * 196 + (i 1).val) * 2048 + (i 3).val = (((i 0).val * 196 + (i 1).val) * 1 + (i 2).val) * 2048 + (i 3).val
        omega)

private theorem cast_v14 (y : S4x196x80.Idx → EReal) (i : S4x196x1x80.Idx) :
    shapeCast S4x196x1x80 y shapeCasts_S4x196x80_S4x196x1x80 i = y (ix3 (i 0) (i 1) (i 3)) :=
  shapeCast_apply y shapeCasts_S4x196x80_S4x196x1x80 i (ix3 (i 0) (i 1) (i 3))
    (by rewrite [Shape.rowMajor_val_three, Shape.rowMajor_val_four]
        have h0 : (i 0).val < 4 := (i 0).isLt; have h1 : (i 1).val < 196 := (i 1).isLt; have h2 : (i 2).val < 1 := (i 2).isLt; have h3 : (i 3).val < 80 := (i 3).isLt
        show ((i 0).val * 196 + (i 1).val) * 80 + (i 3).val = (((i 0).val * 196 + (i 1).val) * 1 + (i 2).val) * 80 + (i 3).val
        omega)

/-- Splitting the position axis into rows and columns: `(b, h, w, k)` is `(b, 14 h + w, k)`. -/
private theorem cast_v12 (y : S4x196x80.Idx → EReal) (i : S4x14x14x80.Idx) :
    shapeCast S4x14x14x80 y shapeCasts_S4x196x80_S4x14x14x80 i = y (ix3 (i 0) (Cert.Pool.sp (i 1) (i 2)) (i 3)) :=
  shapeCast_apply y shapeCasts_S4x196x80_S4x14x14x80 i (ix3 (i 0) (Cert.Pool.sp (i 1) (i 2)) (i 3))
    (by rewrite [Shape.rowMajor_val_three, Shape.rowMajor_val_four]
        have h0 : (i 0).val < 4 := (i 0).isLt; have h1 : (i 1).val < 14 := (i 1).isLt; have h2 : (i 2).val < 14 := (i 2).isLt; have h3 : (i 3).val < 80 := (i 3).isLt
        show ((i 0).val * 196 + ((i 1).val * 14 + (i 2).val)) * 80 + (i 3).val = (((i 0).val * 14 + (i 1).val) * 14 + (i 2).val) * 80 + (i 3).val
        omega)

private theorem run_v13 (W : Valuation τ sig (Elt Ideal)) :
    StableHlo.after (hostOps1 (F := Ideal)) W (Proc.devRef .tc main_v13)
      = shapeCast S4x196x1x2048 (W (Proc.devRef .tc main_v1)) shapeCasts_S4x196x2048_S4x196x1x2048 := by
  dsimp only [hostOps1]
  after_results
  rfl

private theorem run_v14 (W : Valuation τ sig (Elt Ideal)) :
    StableHlo.after (hostOps1 (F := Ideal)) W (Proc.devRef .tc main_v14)
      = shapeCast S4x196x1x80 (W (Proc.devRef .tc main_v11)) shapeCasts_S4x196x80_S4x196x1x80 := by
  dsimp only [hostOps1]
  after_results
  rfl

private theorem run_v12 (W : Valuation τ sig (Elt Ideal)) :
    StableHlo.after (hostOps1 (F := Ideal)) W (Proc.devRef .tc main_v12)
      = shapeCast S4x14x14x80 (W (Proc.devRef .tc main_v11)) shapeCasts_S4x196x80_S4x14x14x80 := by
  dsimp only [hostOps1]
  after_results
  rfl

/-- The host lines between the regions re-lay the pixels and the weights with a unit axis, and the weights by rows and columns. -/
theorem mid_v13 (W : Valuation τ sig (Elt Ideal)) (i : S4x196x1x2048.Idx) :
    (StableHlo.after (hostOps1 (F := Ideal)) W (Proc.devRef .tc main_v13) : S4x196x1x2048.Idx → EReal) i
      = (W (Proc.devRef .tc main_v1) : S4x196x2048.Idx → EReal) (ix3 (i 0) (i 1) (i 3)) :=
  (congrFun (run_v13 W) i).trans (cast_v13 _ i)
theorem mid_v14 (W : Valuation τ sig (Elt Ideal)) (i : S4x196x1x80.Idx) :
    (StableHlo.after (hostOps1 (F := Ideal)) W (Proc.devRef .tc main_v14) : S4x196x1x80.Idx → EReal) i
      = (W (Proc.devRef .tc main_v11) : S4x196x80.Idx → EReal) (ix3 (i 0) (i 1) (i 3)) :=
  (congrFun (run_v14 W) i).trans (cast_v14 _ i)
theorem mid_v12 (W : Valuation τ sig (Elt Ideal)) (i : S4x14x14x80.Idx) :
    (StableHlo.after (hostOps1 (F := Ideal)) W (Proc.devRef .tc main_v12) : S4x14x14x80.Idx → EReal) i
      = (W (Proc.devRef .tc main_v11) : S4x196x80.Idx → EReal) (ix3 (i 0) (Cert.Pool.sp (i 1) (i 2)) (i 3)) :=
  (congrFun (run_v12 W) i).trans (cast_v12 _ i)
theorem mid_v1 (W : Valuation τ sig (Elt Ideal)) : StableHlo.after (hostOps1 (F := Ideal)) W (Proc.devRef .tc main_v1) = W (Proc.devRef .tc main_v1) := by
  dsimp only [hostOps1]
  after_results
theorem mid_v11 (W : Valuation τ sig (Elt Ideal)) : StableHlo.after (hostOps1 (F := Ideal)) W (Proc.devRef .tc main_v11) = W (Proc.devRef .tc main_v11) := by
  dsimp only [hostOps1]
  after_results

/-- Splitting the position axis of the weighted pixels into rows and columns. -/
private theorem cast_v16 (y : S4x196x80x2048.Idx → EReal) (i : S4x14x14x80x2048.Idx) :
    shapeCast S4x14x14x80x2048 y shapeCasts_S4x196x80x2048_S4x14x14x80x2048 i = y (ix4 (i 0) (Cert.Pool.sp (i 1) (i 2)) (i 3) (i 4)) :=
  shapeCast_apply y shapeCasts_S4x196x80x2048_S4x14x14x80x2048 i (ix4 (i 0) (Cert.Pool.sp (i 1) (i 2)) (i 3) (i 4))
    (by rewrite [Shape.rowMajor_val_four, Shape.rowMajor_val_five]
        have h0 : (i 0).val < 4 := (i 0).isLt; have h1 : (i 1).val < 14 := (i 1).isLt; have h2 : (i 2).val < 14 := (i 2).isLt; have h3 : (i 3).val < 80 := (i 3).isLt; have h4 : (i 4).val < 2048 := (i 4).isLt
        show (((i 0).val * 196 + ((i 1).val * 14 + (i 2).val)) * 80 + (i 3).val) * 2048 + (i 4).val = ((((i 0).val * 14 + (i 1).val) * 14 + (i 2).val) * 80 + (i 3).val) * 2048 + (i 4).val
        omega)

private theorem run_v16 (W : Valuation τ sig (Elt Ideal)) :
    StableHlo.after (hostOps2 (F := Ideal)) W (Proc.devRef .tc main_v16)
      = shapeCast S4x14x14x80x2048 (W (Proc.devRef .tc main_v15)) shapeCasts_S4x196x80x2048_S4x14x14x80x2048 := by
  dsimp only [hostOps2]
  after_results
  rfl

/-- The host lines after the second region re-lay the weighted pixels by rows and columns and sum weight times pixel over the positions. -/
theorem tail_v16 (W : Valuation τ sig (Elt Ideal)) (i : S4x14x14x80x2048.Idx) :
    (StableHlo.after (hostOps2 (F := Ideal)) W (Proc.devRef .tc main_v16) : S4x14x14x80x2048.Idx → EReal) i
      = (W (Proc.devRef .tc main_v15) : S4x196x80x2048.Idx → EReal) (ix4 (i 0) (Cert.Pool.sp (i 1) (i 2)) (i 3) (i 4)) :=
  (congrFun (run_v16 W) i).trans (cast_v16 _ i)
/-- Weight times pixel summed over the positions. -/
def semG (A : S4x196x80.Idx → EReal) (X : S4x196x2048.Idx → EReal) : S4x80x2048.Idx → EReal :=
  fun i => ∑ s : Fin 196, A (ix3 (i 0) s (i 1)) * X (ix3 (i 0) s (i 2))

private abbrev D17 := dot_S4x196x80_S4x196x2048_S4x80x2048_1_1_2_2_0_0

/-- The left operand's coordinates: the batch axis reads the result's axis 0, the contracting axis the contraction position, the remaining axis the result's axis 1. -/
private theorem lhs17_0 (i : S4x80x2048.Idx) (q : D17.contr.Idx) : (D17.lhsIdx i q 0).val = (i 0).val := by
  unfold DotDims.lhsIdx
  rw [dif_pos (show (0 : Fin S4x196x80.rank) ∈ D17.lhsBatch by decide)]
  rfl
private theorem lhs17_1 (i : S4x80x2048.Idx) (q : D17.contr.Idx) : (D17.lhsIdx i q 1).val = (q ⟨0, by decide⟩).val :=
  D17.lhsIdx_val_of_single rfl i q
private theorem lhs17_2 (i : S4x80x2048.Idx) (q : D17.contr.Idx) : (D17.lhsIdx i q 2).val = (i 1).val := by
  unfold DotDims.lhsIdx
  rw [dif_neg (show ¬(2 : Fin S4x196x80.rank) ∈ D17.lhsBatch by decide), dif_pos (show (2 : Fin S4x196x80.rank) ∈ D17.lhsNonContracting by decide)]
  rfl
/-- The right operand's: batch axis, contraction position, and the result's axis 2. -/
private theorem rhs17_0 (i : S4x80x2048.Idx) (q : D17.contr.Idx) : (D17.rhsIdx i q 0).val = (i 0).val := by
  unfold DotDims.rhsIdx
  rw [dif_pos (show (0 : Fin S4x196x2048.rank) ∈ D17.rhsBatch by decide)]
  rfl
private theorem rhs17_1 (i : S4x80x2048.Idx) (q : D17.contr.Idx) : (D17.rhsIdx i q 1).val = (q ⟨0, by decide⟩).val :=
  D17.rhsIdx_val_of_single rfl i q
private theorem rhs17_2 (i : S4x80x2048.Idx) (q : D17.contr.Idx) : (D17.rhsIdx i q 2).val = (i 2).val := by
  unfold DotDims.rhsIdx
  rw [dif_neg (show ¬(2 : Fin S4x196x2048.rank) ∈ D17.rhsBatch by decide), dif_pos (show (2 : Fin S4x196x2048.rank) ∈ D17.rhsNonContracting by decide)]
  rfl

/-- The batched contraction over the positions is the sum of weight times pixel. -/
private theorem dot_v17 (A : S4x196x80.Idx → EReal) (X : S4x196x2048.Idx → EReal) :
    (Host.dotGeneral (F := Ideal) (φ₁ := .f32) (φ₂ := .f32) D17 none A X : S4x80x2048.Idx → EReal) = semG A X := by
  funext i
  simp only [Host.dotGeneral]
  rw [Ideal.dotGeneral_apply, ← Equiv.sum_comp (contrEquiv1 D17 196 rfl rfl).symm]
  unfold semG
  refine Finset.sum_congr rfl fun k _ => ?_
  have hk := contrEquiv1_symm_val D17 196 rfl rfl k
  have el : D17.lhsIdx i ((contrEquiv1 D17 196 rfl rfl).symm k) = ix3 (i 0) k (i 1) := funext fun a => Fin.ext (by
    match a with
    | ⟨0, _⟩ => exact lhs17_0 _ _
    | ⟨1, _⟩ => exact (lhs17_1 _ _).trans hk
    | ⟨2, _⟩ => exact lhs17_2 _ _)
  have er : D17.rhsIdx i ((contrEquiv1 D17 196 rfl rfl).symm k) = ix3 (i 0) k (i 2) := funext fun a => Fin.ext (by
    match a with
    | ⟨0, _⟩ => exact rhs17_0 _ _
    | ⟨1, _⟩ => exact (rhs17_1 _ _).trans hk
    | ⟨2, _⟩ => exact rhs17_2 _ _)
  rw [el, er]
  rfl

private theorem run_v17 (W : Valuation τ sig (Elt Ideal)) :
    StableHlo.after (hostOps2 (F := Ideal)) W (Proc.devRef .tc main_v17)
      = Host.dotGeneral (F := Ideal) (φ₁ := .f32) (φ₂ := .f32) D17 none (W (Proc.devRef .tc main_v11)) (W (Proc.devRef .tc main_v1)) := by
  dsimp only [hostOps2]
  after_results

theorem tail_v17 (W : Valuation τ sig (Elt Ideal)) :
    StableHlo.after (hostOps2 (F := Ideal)) W (Proc.devRef .tc main_v17) = semG (W (Proc.devRef .tc main_v11)) (W (Proc.devRef .tc main_v1)) :=
  (run_v17 W).trans (dot_v17 _ _)
theorem tail_v12 (W : Valuation τ sig (Elt Ideal)) : StableHlo.after (hostOps2 (F := Ideal)) W (Proc.devRef .tc main_v12) = W (Proc.devRef .tc main_v12) := by
  dsimp only [hostOps2]
  after_results

end Cert.KernelIdeal.Val

end
-- ==== Proof.KValue.lean ====
/-
  The idealized kernel's three results as the mathematics' arrays of the arguments.

  The fold through the program's segments is walked back from the last boundary: the weights result is a
  re-laying of the first region's array; the weighted pixels are a re-laying of the second region's array, whose
  entries are products of the re-laid pixels and weights it was entered with; the pooled result is the host's
  sum over positions of weight times pixel. The first region's array is the softmax over positions of the
  coefficient formed from the arrays the host lines before it leave: the pixels, the projected words, `W1`, the
  folded vector and the folded scalar.
-/
import proofs.«131559_j55396488184259_2_alg».proof.Proof.Spec
import proofs.«131559_j55396488184259_2_alg».proof.Proof.K0Pay
import proofs.«131559_j55396488184259_2_alg».proof.Proof.K0Blocks
import proofs.«131559_j55396488184259_2_alg».proof.Proof.K1
import proofs.«131559_j55396488184259_2_alg».proof.Proof.KHostPre
import proofs.«131559_j55396488184259_2_alg».proof.Proof.KHostTail

set_option maxRecDepth 16384

noncomputable section

open scoped BigOperators

namespace Cert.KernelIdeal.Val

open Cert.KernelIdeal Cert.KernelIdeal.Gen Idealize.ShloMosaic Idealize.ShloMosaic.TcCoe Idealize.ShloMosaic.ValueIdx Idealize.SL.Sem
open Cert.Pool

variable [Cert.KernelIdeal.Facts]

variable (m : (ℓ : Loc nD τ sig) → Buf (Elt Ideal) ℓ) (ρ : Dev nD → PrngReg) (c : Dev nD)

/-- The argument arrays at launch. -/
def ins : Inputs :=
  ⟨m ((c : Thread nD τ).loc main_arg0), m ((c : Thread nD τ).loc main_arg1), m ((c : Thread nD τ).loc main_arg2), m ((c : Thread nD τ).loc main_arg3),
   m ((c : Thread nD τ).loc main_arg4), m ((c : Thread nD τ).loc main_arg5), m ((c : Thread nD τ).loc main_arg6), m ((c : Thread nD τ).loc main_arg7)⟩

theorem insW_W0 : insW (W0 (F := Ideal) m ρ c) = ins m c := rfl

/-! ## The first region's arrays at its exit -/

/-- The weights array `[4, 196, 80]`. -/
theorem W2_v11 : W2 (F := Ideal) m ρ c (Proc.devRef .tc main_v11) = attnG (pixArr (ins m c)) (wprojArr (ins m c)) (ins m c).W1 (vArr (ins m c)) (cArr (ins m c)) := by
  refine (W2_arr m ρ c 5).trans ?_
  rw [arr0 (V1 m ρ) c out0_5_apply]
  show attnG (StableHlo.after hostOps0 (W0 m ρ c) (Proc.devRef .tc main_v1)) (StableHlo.after hostOps0 (W0 m ρ c) (Proc.devRef .tc main_v2))
      (StableHlo.after hostOps0 (W0 m ρ c) (Proc.devRef .tc main_v10)) (StableHlo.after hostOps0 (W0 m ρ c) (Proc.devRef .tc main_v3))
      (StableHlo.after hostOps0 (W0 m ρ c) (Proc.devRef .tc main_v9)) = _
  rw [pre_v1, pre_v2, pre_v10, pre_v3, pre_v9, insW_W0]

/-- The pixels array `[4, 196, 2048]`, an input of the region, is as the host lines left it. -/
theorem W2_v1 : W2 (F := Ideal) m ρ c (Proc.devRef .tc main_v1) = pixArr (ins m c) := by
  refine (W2_arr m ρ c 0).trans ?_
  rw [Pipeline.Dat.arrAt_in (dat0 (V1 m ρ) c) 0 rfl, A_eq0]
  show StableHlo.after hostOps0 (W0 m ρ c) (Proc.devRef .tc main_v1) = _
  rw [pre_v1, insW_W0]

/-! ## The second region's entry and exit -/

theorem ne1_v11 : ∀ w, Pipeline.arrRef spec1 w ≠ main_v11 := by decide
theorem ne1_v1 : ∀ w, Pipeline.arrRef spec1 w ≠ main_v1 := by decide
theorem ne1_v12 : ∀ w, Pipeline.arrRef spec1 w ≠ main_v12 := by decide

/-- The weights and the pixels pass through the host lines between the regions and through the second region. -/
theorem W4_v11 : W4 (F := Ideal) m ρ c (Proc.devRef .tc main_v11) = W2 (F := Ideal) m ρ c (Proc.devRef .tc main_v11) :=
  (W4_of_ne m ρ c main_v11 ne1_v11).trans (mid_v11 (W2 m ρ c))
theorem W4_v1 : W4 (F := Ideal) m ρ c (Proc.devRef .tc main_v1) = W2 (F := Ideal) m ρ c (Proc.devRef .tc main_v1) :=
  (W4_of_ne m ρ c main_v1 ne1_v1).trans (mid_v1 (W2 m ρ c))

/-- The second region's array, entry by entry: pixel times weight. -/
theorem W4_v15 (i : S4x196x80x2048.Idx) :
    (W4 (F := Ideal) m ρ c (Proc.devRef .tc main_v15) : S4x196x80x2048.Idx → EReal) i
      = pix (ins m c) (i 0) (i 1) (i 3) * attn1 (coefK (ins m c) (i 0)) (i 1) (i 2) := by
  rw [show W4 (F := Ideal) m ρ c (Proc.devRef .tc main_v15) = fwcG (V3 m ρ c main_v13) (V3 m ρ c main_v14) from
    (W4_arr m ρ c 2).trans (arr1 (V3 m ρ) c)]
  have e13 : (StableHlo.after hostOps1 (W2 m ρ c) (Proc.devRef .tc main_v13) : S4x196x1x2048.Idx → EReal)
      = fun j => pix (ins m c) (j 0) (j 1) (j 3) := by
    funext j; rw [mid_v13, W2_v1]; rfl
  have e14 : (StableHlo.after hostOps1 (W2 m ρ c) (Proc.devRef .tc main_v14) : S4x196x1x80.Idx → EReal)
      = fun j => attn1 (coefK (ins m c) (j 0)) (j 1) (j 3) := by
    funext j; rw [mid_v14, W2_v11]; rfl
  show fwcG (StableHlo.after hostOps1 (W2 m ρ c) (Proc.devRef .tc main_v13)) (StableHlo.after hostOps1 (W2 m ρ c) (Proc.devRef .tc main_v14)) i = _
  rw [e13, e14]
  rfl

/-! ## The three results -/

/-- The weights, by rows and columns. -/
theorem W5_v12 : W5 (F := Ideal) m ρ c (Proc.devRef .tc main_v12) = outSm (coefK (ins m c)) := by
  funext i
  rw [show W5 (F := Ideal) m ρ c (Proc.devRef .tc main_v12) = StableHlo.after hostOps1 (W2 m ρ c) (Proc.devRef .tc main_v12) from
    (tail_v12 (W4 m ρ c)).trans (W4_of_ne m ρ c main_v12 ne1_v12)]
  rw [mid_v12, W2_v11]
  rfl

/-- The weighted pixels, by rows and columns. -/
theorem W5_v16 : W5 (F := Ideal) m ρ c (Proc.devRef .tc main_v16) = outFwc (ins m c) (coefK (ins m c)) := by
  funext i
  show (StableHlo.after hostOps2 (W4 m ρ c) (Proc.devRef .tc main_v16) : S4x14x14x80x2048.Idx → EReal) i = _
  rw [tail_v16, W4_v15]
  rfl

/-- The weighted sum of the pixels over the positions. -/
theorem W5_v17 : W5 (F := Ideal) m ρ c (Proc.devRef .tc main_v17) = outSem (ins m c) (coefK (ins m c)) := by
  show StableHlo.after hostOps2 (W4 m ρ c) (Proc.devRef .tc main_v17) = _
  rw [tail_v17, W4_v11, W4_v1, W2_v11, W2_v1]
  rfl

end Cert.KernelIdeal.Val

end
-- ==== Proof.RefCoef.lean ====
/-
  The reference's coefficient array, read at an index: the projected pixels times the projected words, the tanh, the layer `W3` with
  its bias `b3`, the layer `W4` with its bias `b4`, applied one after the other.
-/
import proofs.«131559_j55396488184259_2_alg».proof.Proof.Spec
import proofs.«131559_j55396488184259_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem

variable [Cert.ReferenceIdeal.Facts]

/-- The projected pixels: the contraction of the transposed image with `W1` over the 2048 channels. -/
private theorem v1_at (x0 : (⟨S4x2048x14x14, .f32⟩ : BufTy).Contents (Elt Ideal)) (x2 : (⟨S1024x2048, .f32⟩ : BufTy).Contents (Elt Ideal)) (b : Fin 4) (h w : Fin 14) (d : Fin 1024) :
    val_main_v1 (F := Ideal) x0 x2 (ix4 b h w d) = ∑ c : Fin 2048, x0 (ix4 b c h w) * x2 (ix2 d c) := by
  rw [val_main_v1_apply]
  refine Finset.sum_congr rfl fun c _ => ?_
  rw [val_main_v0_apply]
  have e1 : idx_main_v0 (lidx_main_v1 (ix4 b h w d) c) = ix4 b c h w := funext fun a => Fin.ext (by
    match a with
    | ⟨0, _⟩ => rfl
    | ⟨1, _⟩ => rfl
    | ⟨2, _⟩ => rfl
    | ⟨3, _⟩ => rfl)
  have e2 : ridx_main_v1 (ix4 b h w d) c = ix2 d c := funext fun a => Fin.ext (by
    match a with
    | ⟨0, _⟩ => rfl
    | ⟨1, _⟩ => rfl)
  rw [e1, e2]

/-- The projected word vectors: the contraction of the words with `W2` over the 300 word coordinates. -/
private theorem v2_at (x1 : (⟨S80x300, .f32⟩ : BufTy).Contents (Elt Ideal)) (x3 : (⟨S1024x300, .f32⟩ : BufTy).Contents (Elt Ideal)) (k : Fin 80) (d : Fin 1024) :
    val_main_v2 (F := Ideal) x1 x3 (ix2 k d) = ∑ v : Fin 300, x1 (ix2 k v) * x3 (ix2 d v) := by
  rw [val_main_v2_apply]
  refine Finset.sum_congr rfl fun v _ => ?_
  have e1 : lidx_main_v2 (ix2 k d) v = ix2 k v := funext fun a => Fin.ext (by
    match a with
    | ⟨0, _⟩ => rfl
    | ⟨1, _⟩ => rfl)
  have e2 : ridx_main_v2 (ix2 k d) v = ix2 d v := funext fun a => Fin.ext (by
    match a with
    | ⟨0, _⟩ => rfl
    | ⟨1, _⟩ => rfl)
  rw [e1, e2]

/-- The bounded interaction: both projections broadcast to `[4,14,14,80,1024]`, multiplied, under `tanh`. -/
private theorem v8_at (x0 : (⟨S4x2048x14x14, .f32⟩ : BufTy).Contents (Elt Ideal)) (x1 : (⟨S80x300, .f32⟩ : BufTy).Contents (Elt Ideal)) (x2 : (⟨S1024x2048, .f32⟩ : BufTy).Contents (Elt Ideal)) (x3 : (⟨S1024x300, .f32⟩ : BufTy).Contents (Elt Ideal)) (b : Fin 4) (h w : Fin 14) (k : Fin 80) (d : Fin 1024) :
    val_main_v8 (F := Ideal) x0 x1 x2 x3 (ix5 b h w k d)
      = Ideal.tanh (val_main_v1 (F := Ideal) x0 x2 (ix4 b h w d) * val_main_v2 (F := Ideal) x1 x3 (ix2 k d)) := by
  rw [val_main_v8_apply, val_main_v7_apply, val_main_v5_apply, val_main_v3_apply, val_main_v6_apply, val_main_v4_apply]
  have e1 : idx_main_v3 (idx_main_v5 (ix5 b h w k d)) = ix4 b h w d := funext fun a => Fin.ext (by
    match a with
    | ⟨0, _⟩ => rfl
    | ⟨1, _⟩ => rfl
    | ⟨2, _⟩ => rfl
    | ⟨3, _⟩ => rfl)
  have e2 : idx_main_v4 (idx_main_v6 (ix5 b h w k d)) = ix2 k d := funext fun a => Fin.ext (by
    match a with
    | ⟨0, _⟩ => rfl
    | ⟨1, _⟩ => rfl)
  rw [e1, e2]
  rfl

/-- The hidden layer: the contraction with `W3` over `d`, plus the bias `b3`. -/
private theorem v12_at (x0 : (⟨S4x2048x14x14, .f32⟩ : BufTy).Contents (Elt Ideal)) (x1 : (⟨S80x300, .f32⟩ : BufTy).Contents (Elt Ideal)) (x2 : (⟨S1024x2048, .f32⟩ : BufTy).Contents (Elt Ideal)) (x3 : (⟨S1024x300, .f32⟩ : BufTy).Contents (Elt Ideal)) (x4 : (⟨S1024x1024, .f32⟩ : BufTy).Contents (Elt Ideal)) (x5 : (⟨S1024, .f32⟩ : BufTy).Contents (Elt Ideal)) (b : Fin 4) (h w : Fin 14) (k : Fin 80) (e : Fin 1024) :
    val_main_v12 (F := Ideal) x0 x1 x2 x3 x4 x5 (ix5 b h w k e)
      = (∑ d : Fin 1024, val_main_v8 (F := Ideal) x0 x1 x2 x3 (ix5 b h w k d) * x4 (ix2 e d)) + x5 (ix1 e) := by
  rw [val_main_v12_apply, val_main_v9_apply, val_main_v11_apply, val_main_v10_apply]
  have e1 : ∀ d : Fin 1024, lidx_main_v9 (ix5 b h w k e) d = ix5 b h w k d := fun d => funext fun a => Fin.ext (by
    match a with
    | ⟨0, _⟩ => rfl
    | ⟨1, _⟩ => rfl
    | ⟨2, _⟩ => rfl
    | ⟨3, _⟩ => rfl
    | ⟨4, _⟩ => rfl)
  have e2 : ∀ d : Fin 1024, ridx_main_v9 (ix5 b h w k e) d = ix2 e d := fun d => funext fun a => Fin.ext (by
    match a with
    | ⟨0, _⟩ => rfl
    | ⟨1, _⟩ => rfl)
  have e3 : idx_main_v10 (idx_main_v11 (ix5 b h w k e)) = ix1 e := funext fun a => Fin.ext (by
    match a with
    | ⟨0, _⟩ => rfl)
  rw [e3, Finset.sum_congr rfl fun d _ => by rw [e1 d, e2 d]]
  rfl

/-- The output layer: the contraction with `W4` over `e`. -/
private theorem v13_at (x0 : (⟨S4x2048x14x14, .f32⟩ : BufTy).Contents (Elt Ideal)) (x1 : (⟨S80x300, .f32⟩ : BufTy).Contents (Elt Ideal)) (x2 : (⟨S1024x2048, .f32⟩ : BufTy).Contents (Elt Ideal)) (x3 : (⟨S1024x300, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (b : Fin 4) (h w : Fin 14) (k : Fin 80) :
    val_main_v13 (F := Ideal) x0 x1 x2 x3 x4 x5 x6 (ix5 b h w k 0)
      = ∑ e : Fin 1024, val_main_v12 (F := Ideal) x0 x1 x2 x3 x4 x5 (ix5 b h w k e) * x6 (ix2 0 e) := by
  rw [val_main_v13_apply]
  refine Finset.sum_congr rfl fun e _ => ?_
  have e1 : lidx_main_v13 (ix5 b h w k 0) e = ix5 b h w k e := funext fun a => Fin.ext (by
    match a with
    | ⟨0, _⟩ => rfl
    | ⟨1, _⟩ => rfl
    | ⟨2, _⟩ => rfl
    | ⟨3, _⟩ => rfl
    | ⟨4, _⟩ => rfl)
  have e2 : ridx_main_v13 (ix5 b h w k 0) e = ix2 0 e := funext fun a => Fin.ext (by
    match a with
    | ⟨0, _⟩ => rfl
    | ⟨1, _⟩ => rfl)
  rw [e1, e2]

/-- The scalar bias: the one-element array `b4` read as a rank-0 array. -/
private theorem v15_at (x7 : (⟨S1, .f32⟩ : BufTy).Contents (Elt Ideal)) (j : S_.Idx) : val_main_v15 (F := Ideal) x7 j = x7 (ix1 0) := by
  unfold val_main_v15
  exact shapeCast_apply x7 shapeCasts_S1_S_ j (ix1 0)
    (by rw [Shape.rowMajor_val_one]; exact (Shape.rowMajorPi_zero _ j).symm)

/-- Dropping the unit axis and adding the scalar bias. -/
private theorem v17_at (x0 : (⟨S4x2048x14x14, .f32⟩ : BufTy).Contents (Elt Ideal)) (x1 : (⟨S80x300, .f32⟩ : BufTy).Contents (Elt Ideal)) (x2 : (⟨S1024x2048, .f32⟩ : BufTy).Contents (Elt Ideal)) (x3 : (⟨S1024x300, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (x7 : (⟨S1, .f32⟩ : BufTy).Contents (Elt Ideal)) (b : Fin 4) (h w : Fin 14) (k : Fin 80) :
    val_main_v17 (F := Ideal) x0 x1 x2 x3 x4 x5 x6 x7 (ix4 b h w k)
      = val_main_v13 (F := Ideal) x0 x1 x2 x3 x4 x5 x6 (ix5 b h w k 0) + x7 (ix1 0) := by
  rw [val_main_v17_apply, val_main_v14_apply, val_main_v16_apply, v15_at]
  have e1 : idx_main_v14 (ix4 b h w k) = ix5 b h w k 0 := funext fun a => Fin.ext (by
    have hb := b.isLt; have hh := h.isLt; have hw := w.isLt; have hk := k.isLt
    match a with
    | ⟨0, _⟩ => show (((b.val * 14 + h.val) * 14 + w.val) * 80 + k.val) / 15680 = b.val; omega
    | ⟨1, _⟩ => show (((b.val * 14 + h.val) * 14 + w.val) * 80 + k.val) / 1120 % 14 = h.val; omega
    | ⟨2, _⟩ => show (((b.val * 14 + h.val) * 14 + w.val) * 80 + k.val) / 80 % 14 = w.val; omega
    | ⟨3, _⟩ => show (((b.val * 14 + h.val) * 14 + w.val) * 80 + k.val) / 1 % 80 = k.val; omega
    | ⟨4, _⟩ => rfl)
  rw [e1]
  rfl

/-- Flattening the two position axes: position `s` is row `s / 14`, column `s % 14`. -/
private theorem v18_at (x0 : (⟨S4x2048x14x14, .f32⟩ : BufTy).Contents (Elt Ideal)) (x1 : (⟨S80x300, .f32⟩ : BufTy).Contents (Elt Ideal)) (x2 : (⟨S1024x2048, .f32⟩ : BufTy).Contents (Elt Ideal)) (x3 : (⟨S1024x300, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (x7 : (⟨S1, .f32⟩ : BufTy).Contents (Elt Ideal)) (b : Fin 4) (s : Fin 196) (k : Fin 80) :
    val_main_v18 (F := Ideal) x0 x1 x2 x3 x4 x5 x6 x7 (ix3 b s k)
      = val_main_v17 (F := Ideal) x0 x1 x2 x3 x4 x5 x6 x7 (ix4 b (Cert.Pool.hOf s) (Cert.Pool.wOf s) k) := by
  rw [val_main_v18_apply]
  have e1 : idx_main_v18 (ix3 b s k) = ix4 b (Cert.Pool.hOf s) (Cert.Pool.wOf s) k := funext fun a => Fin.ext (by
    have hb := b.isLt; have hs := s.isLt; have hk := k.isLt
    match a with
    | ⟨0, _⟩ => show ((b.val * 196 + s.val) * 80 + k.val) / 15680 = b.val; omega
    | ⟨1, _⟩ => show ((b.val * 196 + s.val) * 80 + k.val) / 1120 % 14 = s.val / 14; omega
    | ⟨2, _⟩ => show ((b.val * 196 + s.val) * 80 + k.val) / 80 % 14 = s.val % 14; omega
    | ⟨3, _⟩ => show ((b.val * 196 + s.val) * 80 + k.val) % 80 = k.val; omega)
  rw [e1]

/-- The reference's coefficient array `[4, 196, 80]` is `coefR`. -/
theorem coef_eq (x0 : (⟨S4x2048x14x14, .f32⟩ : BufTy).Contents (Elt Ideal)) (x1 : (⟨S80x300, .f32⟩ : BufTy).Contents (Elt Ideal)) (x2 : (⟨S1024x2048, .f32⟩ : BufTy).Contents (Elt Ideal)) (x3 : (⟨S1024x300, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (x7 : (⟨S1, .f32⟩ : BufTy).Contents (Elt Ideal)) (i : S4x196x80.Idx) :
    val_main_v18 (F := Ideal) x0 x1 x2 x3 x4 x5 x6 x7 i = Cert.Pool.coefR ⟨x0, x1, x2, x3, x4, x5, x6, x7⟩ (i 0) (i 1) (i 2) := by
  obtain ⟨b, s, k, rfl⟩ : ∃ (b : Fin 4) (s : Fin 196) (k : Fin 80), i = ix3 b s k := ⟨i 0, i 1, i 2, eq_ix3 i⟩
  rw [v18_at, v17_at, v13_at]
  show _ = Cert.Pool.coefR ⟨x0, x1, x2, x3, x4, x5, x6, x7⟩ b s k
  unfold Cert.Pool.coefR
  refine congrArg (· + x7 (ix1 0)) (Finset.sum_congr rfl fun e _ => ?_)
  rw [v12_at]
  unfold Cert.Pool.feat
  refine congrArg (· * x6 (ix2 0 e)) (congrArg (· + x5 (ix1 e)) (Finset.sum_congr rfl fun d _ => ?_))
  rw [v8_at, v1_at, v2_at]
  rfl

end Cert.ReferenceIdeal.RefValue

end
-- ==== Proof.RefSoftmax.lean ====
/-
  The reference's softmax over the 196 positions, read at an index: the maximum over the positions (a fold of `max` from minus infinity,
  taken once more against minus infinity, which changes nothing), the shifted exponential, its sum over the positions, the quotient.
-/
import proofs.«131559_j55396488184259_2_alg».proof.Proof.Spec
import proofs.«131559_j55396488184259_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem

variable [Cert.ReferenceIdeal.Facts]

/-- Position `(b, k)` of the reduced array with `s` put back on the middle axis is `(b, s, k)`. -/
private theorem lift_mid (h : S4x196x80.Reduces [1] S4x80) (b : Fin 4) (k : Fin 80) (s : Fin (S4x196x80.size 1)) :
    h.lift (ix2 b k) s = ix3 b (⟨s.val, s.isLt⟩ : Fin 196) k := by
  funext c; apply Fin.ext
  fin_cases c <;> rfl

/-- A fold of `max` started from `m` already dominates `m`. -/
private theorem max_fold_self {ι : Type} (m : EReal) (f : ι → EReal) (t : Finset ι) :
    max m (t.fold max m f) = t.fold max m f :=
  max_eq_right ((Finset.le_fold_max m).2 (Or.inl le_rfl))

/-- The maximum over the middle axis, started from minus infinity, of an array `C`, at `(b, k)`. -/
private theorem reduceMax_apply (C : S4x196x80.Idx → EReal) (h' : S4x196x80.ReducesTo [1] S4x80) (hu : 0 < S_.numel)
    (b : Fin 4) (k : Fin 80) :
    Host.reduce (FloatOps.maximumf (F := Ideal) (φ := .f32)) C (constant (F := Ideal) S_ .f32 0xFF800000#32) h' hu (ix2 b k)
      = Cert.Pool.smax1 (fun s k => C (ix3 b s k)) k := by
  have h : S4x196x80.Reduces [1] S4x80 := by decide
  refine (Host.reduce_eq_fold_single (FloatOps.maximumf (F := Ideal) (φ := .f32)) C _ h' h hu (ix2 b k)).trans ?_
  have hf : (C ∘ h.lift (ix2 b k)) = fun s : Fin 196 => C (ix3 b s k) := funext fun s => congrArg C (lift_mid h b k s)
  unfold Cert.Pool.smax1 Cert.Pool.negInf
  exact congrArg (fun f => Finset.fold max (Ideal.ofBits .f32 0xFF800000#32) f (Finset.univ : Finset (Fin 196))) hf

/-- The clamped maximum at `(b, k)` is the largest coefficient of class `k`. -/
private theorem max_at (x0 : (⟨S4x2048x14x14, .f32⟩ : BufTy).Contents (Elt Ideal)) (x1 : (⟨S80x300, .f32⟩ : BufTy).Contents (Elt Ideal)) (x2 : (⟨S1024x2048, .f32⟩ : BufTy).Contents (Elt Ideal)) (x3 : (⟨S1024x300, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (x7 : (⟨S1, .f32⟩ : BufTy).Contents (Elt Ideal)) (b : Fin 4) (k : Fin 80) :
    val_main_v21 (F := Ideal) x0 x1 x2 x3 x4 x5 x6 x7 (ix2 b k)
      = Cert.Pool.smax1 (fun s k => val_main_v18 (F := Ideal) x0 x1 x2 x3 x4 x5 x6 x7 (ix3 b s k)) k := by
  rw [val_main_v21_apply, val_main_v20_apply, val_main_cst_0_apply]
  unfold val_main_v19 val_main_cst
  rw [reduceMax_apply]
  exact max_fold_self _ _ _

/-- The shifted exponential at `(b, s, k)`. -/
private theorem exp_at (x0 : (⟨S4x2048x14x14, .f32⟩ : BufTy).Contents (Elt Ideal)) (x1 : (⟨S80x300, .f32⟩ : BufTy).Contents (Elt Ideal)) (x2 : (⟨S1024x2048, .f32⟩ : BufTy).Contents (Elt Ideal)) (x3 : (⟨S1024x300, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (x7 : (⟨S1, .f32⟩ : BufTy).Contents (Elt Ideal)) (b : Fin 4) (s : Fin 196) (k : Fin 80) :
    val_main_v25 (F := Ideal) x0 x1 x2 x3 x4 x5 x6 x7 (ix3 b s k)
      = Cert.Pool.expo1 (fun s k => val_main_v18 (F := Ideal) x0 x1 x2 x3 x4 x5 x6 x7 (ix3 b s k)) s k := by
  rw [val_main_v25_apply, val_main_v24_apply, val_main_v23_apply, val_main_v22_apply]
  have e : idx_main_v22 (idx_main_v23 (ix3 b s k)) = ix2 b k := by
    funext a; apply Fin.ext
    match a with
    | ⟨0, _⟩ => rfl
    | ⟨1, _⟩ => rfl
  rw [e, max_at]
  rfl

/-- The sum of the shifted exponentials over the positions, at `(b, k)`. -/
private theorem sum_at (x0 : (⟨S4x2048x14x14, .f32⟩ : BufTy).Contents (Elt Ideal)) (x1 : (⟨S80x300, .f32⟩ : BufTy).Contents (Elt Ideal)) (x2 : (⟨S1024x2048, .f32⟩ : BufTy).Contents (Elt Ideal)) (x3 : (⟨S1024x300, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (x7 : (⟨S1, .f32⟩ : BufTy).Contents (Elt Ideal)) (b : Fin 4) (k : Fin 80) :
    val_main_v26 (F := Ideal) x0 x1 x2 x3 x4 x5 x6 x7 (ix2 b k)
      = ∑ s : Fin 196, Cert.Pool.expo1 (fun s k => val_main_v18 (F := Ideal) x0 x1 x2 x3 x4 x5 x6 x7 (ix3 b s k)) s k := by
  rw [val_main_v26_apply, val_main_cst_1_apply]
  show Ideal.ofBits .f32 0x00000000#32 + _ = _
  rw [Ideal.ofBits_zero_f32, zero_add]
  refine Finset.sum_congr rfl fun s _ => ?_
  have e : idx_main_v26 (ix2 b k) s = ix3 b s k := by
    funext a; apply Fin.ext
    match a with
    | ⟨0, _⟩ => rfl
    | ⟨1, _⟩ => rfl
    | ⟨2, _⟩ => rfl
  rw [e, exp_at]

/-- The softmax array at `(b, s, k)`. -/
private theorem attn_at (x0 : (⟨S4x2048x14x14, .f32⟩ : BufTy).Contents (Elt Ideal)) (x1 : (⟨S80x300, .f32⟩ : BufTy).Contents (Elt Ideal)) (x2 : (⟨S1024x2048, .f32⟩ : BufTy).Contents (Elt Ideal)) (x3 : (⟨S1024x300, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (x7 : (⟨S1, .f32⟩ : BufTy).Contents (Elt Ideal)) (b : Fin 4) (s : Fin 196) (k : Fin 80) :
    val_main_v29 (F := Ideal) x0 x1 x2 x3 x4 x5 x6 x7 (ix3 b s k)
      = Cert.Pool.attn1 (fun s k => val_main_v18 (F := Ideal) x0 x1 x2 x3 x4 x5 x6 x7 (ix3 b s k)) s k := by
  rw [val_main_v29_apply, val_main_v28_apply, val_main_v27_apply]
  have e : idx_main_v27 (idx_main_v28 (ix3 b s k)) = ix2 b k := by
    funext a; apply Fin.ext
    match a with
    | ⟨0, _⟩ => rfl
    | ⟨1, _⟩ => rfl
  rw [e, sum_at, exp_at]
  rfl

/-- The reference's softmax array is the softmax over positions of its coefficient array. -/
theorem attn_eq (x0 : (⟨S4x2048x14x14, .f32⟩ : BufTy).Contents (Elt Ideal)) (x1 : (⟨S80x300, .f32⟩ : BufTy).Contents (Elt Ideal)) (x2 : (⟨S1024x2048, .f32⟩ : BufTy).Contents (Elt Ideal)) (x3 : (⟨S1024x300, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (x7 : (⟨S1, .f32⟩ : BufTy).Contents (Elt Ideal)) (i : S4x196x80.Idx) :
    val_main_v29 (F := Ideal) x0 x1 x2 x3 x4 x5 x6 x7 i
      = Cert.Pool.attn1 (fun s k => val_main_v18 (F := Ideal) x0 x1 x2 x3 x4 x5 x6 x7 (ix3 (i 0) s k)) (i 1) (i 2) :=
  (congrArg (val_main_v29 (F := Ideal) x0 x1 x2 x3 x4 x5 x6 x7) (eq_ix3 i)).trans (attn_at x0 x1 x2 x3 x4 x5 x6 x7 (i 0) (i 1) (i 2))

end Cert.ReferenceIdeal.RefValue

end
-- ==== Proof.RefOut.lean ====
/-
  The reference's three results read off its softmax array: the weights by rows and columns, the pixels times the weights, and their sum
  over the rows and the columns, which is the sum over the 196 positions.
-/
import proofs.«131559_j55396488184259_2_alg».proof.Proof.Spec
import proofs.«131559_j55396488184259_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem

variable [Cert.ReferenceIdeal.Facts]

/-- The reshape's source position is (image, 14·row + column, class). -/
private theorem idx30_eq (i : S4x14x14x80.Idx) :
    idx_main_v30 i = ix3 (i 0) (Cert.Pool.sp (i 1) (i 2)) (i 3) := by
  have h0 : (i 0).val < 4 := (i 0).isLt
  have h1 : (i 1).val < 14 := (i 1).isLt
  have h2 : (i 2).val < 14 := (i 2).isLt
  have h3 : (i 3).val < 80 := (i 3).isLt
  funext a
  match a with
  | ⟨0, _⟩ => exact Fin.ext (by show ((((i 0).val * 14 + (i 1).val) * 14 + (i 2).val) * 80 + (i 3).val) / 15680 = (i 0).val; omega)
  | ⟨1, _⟩ => exact Fin.ext (by show ((((i 0).val * 14 + (i 1).val) * 14 + (i 2).val) * 80 + (i 3).val) / 80 % 196 = (i 1).val * 14 + (i 2).val; omega)
  | ⟨2, _⟩ => exact Fin.ext (by show ((((i 0).val * 14 + (i 1).val) * 14 + (i 2).val) * 80 + (i 3).val) % 80 = (i 3).val; omega)

/-- The weights result is the softmax array re-laid by rows and columns. -/
theorem out_sm (x0 : (⟨S4x2048x14x14, .f32⟩ : BufTy).Contents (Elt Ideal)) (x1 : (⟨S80x300, .f32⟩ : BufTy).Contents (Elt Ideal)) (x2 : (⟨S1024x2048, .f32⟩ : BufTy).Contents (Elt Ideal)) (x3 : (⟨S1024x300, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (x7 : (⟨S1, .f32⟩ : BufTy).Contents (Elt Ideal)) (i : S4x14x14x80.Idx) :
    val_main_v30 (F := Ideal) x0 x1 x2 x3 x4 x5 x6 x7 i = val_main_v29 (F := Ideal) x0 x1 x2 x3 x4 x5 x6 x7 (ix3 (i 0) (Cert.Pool.sp (i 1) (i 2)) (i 3)) := by
  rw [val_main_v30_apply]
  generalize val_main_v29 (F := Ideal) x0 x1 x2 x3 x4 x5 x6 x7 = A
  exact congrArg A (idx30_eq i)

/-- The weighted pixels. -/
theorem out_fwc (x0 : (⟨S4x2048x14x14, .f32⟩ : BufTy).Contents (Elt Ideal)) (x1 : (⟨S80x300, .f32⟩ : BufTy).Contents (Elt Ideal)) (x2 : (⟨S1024x2048, .f32⟩ : BufTy).Contents (Elt Ideal)) (x3 : (⟨S1024x300, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (x7 : (⟨S1, .f32⟩ : BufTy).Contents (Elt Ideal)) (i : S4x14x14x80x2048.Idx) :
    val_main_v35 (F := Ideal) x0 x1 x2 x3 x4 x5 x6 x7 i
      = Cert.Pool.pix ⟨x0, x1, x2, x3, x4, x5, x6, x7⟩ (i 0) (Cert.Pool.sp (i 1) (i 2)) (i 4)
        * val_main_v29 (F := Ideal) x0 x1 x2 x3 x4 x5 x6 x7 (ix3 (i 0) (Cert.Pool.sp (i 1) (i 2)) (i 3)) := by
  rw [val_main_v35_apply, val_main_v33_apply, val_main_v31_apply, val_main_v0_apply,
    val_main_v34_apply, val_main_v32_apply, out_sm]
  generalize val_main_v29 (F := Ideal) x0 x1 x2 x3 x4 x5 x6 x7 = A
  unfold Cert.Pool.pix
  -- the image is read at (b, c, h, w) and the weights at (b, 14 h + w, k): coordinate by coordinate
  refine congrArg₂ (fun p q : EReal => p * q) (congrArg x0 ?_) (congrArg A ?_)
  · funext a
    match a with
    | ⟨0, _⟩ => rfl
    | ⟨1, _⟩ => rfl
    | ⟨2, _⟩ => exact (Cert.Pool.hOf_sp (i 1) (i 2)).symm
    | ⟨3, _⟩ => exact (Cert.Pool.wOf_sp (i 1) (i 2)).symm
  · funext a
    match a with
    | ⟨0, _⟩ => rfl
    | ⟨1, _⟩ => rfl
    | ⟨2, _⟩ => rfl

/-- An index of the five-axis array drops to `j` exactly when it agrees with `j` on the three kept axes. -/
private theorem drop12_iff (h' : S4x14x14x80x2048.ReducesTo [1, 2] S4x80x2048) (a : S4x14x14x80x2048.Idx)
    (j : S4x80x2048.Idx) :
    h'.drop a = j ↔ ((a 0).val = (j 0).val ∧ (a 3).val = (j 1).val ∧ (a 4).val = (j 2).val) := by
  have e0 : ((h'.drop a 0 : Fin _) : Nat) = (a 0).val := Shape.ReducesTo.drop_apply_val_of_eq h' a 0 0
  have e1 : ((h'.drop a 1 : Fin _) : Nat) = (a 3).val := Shape.ReducesTo.drop_apply_val_of_eq h' a 1 3
  have e2 : ((h'.drop a 2 : Fin _) : Nat) = (a 4).val := Shape.ReducesTo.drop_apply_val_of_eq h' a 2 4
  constructor
  · intro hd
    subst hd
    exact ⟨e0.symm, e1.symm, e2.symm⟩
  · rintro ⟨g0, g1, g2⟩
    funext b
    match b with
    | ⟨0, _⟩ => exact Fin.ext (e0.trans g0)
    | ⟨1, _⟩ => exact Fin.ext (e1.trans g1)
    | ⟨2, _⟩ => exact Fin.ext (e2.trans g2)

/-- The sum over the indices that drop to `j` is the double sum over the row and the column. -/
private theorem sum_drop12 (h' : S4x14x14x80x2048.ReducesTo [1, 2] S4x80x2048) (f : S4x14x14x80x2048.Idx → EReal)
    (j : S4x80x2048.Idx) :
    ∑ a ∈ Finset.univ.filter (fun a => h'.drop a = j), f a
      = ∑ h : Fin 14, ∑ w : Fin 14, f (ix5 (j 0) h w (j 1) (j 2)) := by
  rw [← Fintype.sum_prod_type' (f := fun h w => f (ix5 (j 0) h w (j 1) (j 2)))]
  refine Finset.sum_nbij' (fun a => ((a 1, a 2) : Fin 14 × Fin 14)) (fun p => ix5 (j 0) p.1 p.2 (j 1) (j 2)) ?_ ?_ ?_ ?_ ?_
  · intro a _; exact Finset.mem_univ _
  · intro p _
    exact Finset.mem_filter.2 ⟨Finset.mem_univ _, (drop12_iff h' _ j).2 ⟨rfl, rfl, rfl⟩⟩
  · intro a ha
    obtain ⟨g0, g1, g2⟩ := (drop12_iff h' a j).1 (Finset.mem_filter.1 ha).2
    funext b
    match b with
    | ⟨0, _⟩ => exact Fin.ext g0.symm
    | ⟨1, _⟩ => rfl
    | ⟨2, _⟩ => rfl
    | ⟨3, _⟩ => exact Fin.ext g1.symm
    | ⟨4, _⟩ => exact Fin.ext g2.symm
  · intro p _; rfl
  · intro a ha
    obtain ⟨g0, g1, g2⟩ := (drop12_iff h' a j).1 (Finset.mem_filter.1 ha).2
    refine congrArg f ?_
    funext b
    match b with
    | ⟨0, _⟩ => exact Fin.ext g0
    | ⟨1, _⟩ => rfl
    | ⟨2, _⟩ => rfl
    | ⟨3, _⟩ => exact Fin.ext g1
    | ⟨4, _⟩ => exact Fin.ext g2

/-- Rows and columns against flat positions. -/
private def spEquiv : Fin 14 × Fin 14 ≃ Fin 196 where
  toFun p := Cert.Pool.sp p.1 p.2
  invFun s := (Cert.Pool.hOf s, Cert.Pool.wOf s)
  left_inv p := Prod.ext (Cert.Pool.hOf_sp p.1 p.2) (Cert.Pool.wOf_sp p.1 p.2)
  right_inv s := Cert.Pool.sp_hOf_wOf s

/-- A double sum over the row and the column is the sum over the flat positions. -/
private theorem sum_sp (G : Fin 196 → EReal) :
    ∑ h : Fin 14, ∑ w : Fin 14, G (Cert.Pool.sp h w) = ∑ s : Fin 196, G s := by
  rw [← Fintype.sum_prod_type' (f := fun h w => G (Cert.Pool.sp h w))]
  exact Equiv.sum_comp spEquiv G

/-- Their sum over the positions. -/
theorem out_sem (x0 : (⟨S4x2048x14x14, .f32⟩ : BufTy).Contents (Elt Ideal)) (x1 : (⟨S80x300, .f32⟩ : BufTy).Contents (Elt Ideal)) (x2 : (⟨S1024x2048, .f32⟩ : BufTy).Contents (Elt Ideal)) (x3 : (⟨S1024x300, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (x7 : (⟨S1, .f32⟩ : BufTy).Contents (Elt Ideal)) (i : S4x80x2048.Idx) :
    val_main_v36 (F := Ideal) x0 x1 x2 x3 x4 x5 x6 x7 i
      = ∑ s : Fin 196, val_main_v29 (F := Ideal) x0 x1 x2 x3 x4 x5 x6 x7 (ix3 (i 0) s (i 1)) * Cert.Pool.pix ⟨x0, x1, x2, x3, x4, x5, x6, x7⟩ (i 0) s (i 2) := by
  show Ideal.ofBits .f32 0x00000000#32
      + ∑ a ∈ Finset.univ.filter (fun a => reducesTo_S4x14x14x80x2048_S4x80x2048_d1_2.drop a = i),
          val_main_v35 (F := Ideal) x0 x1 x2 x3 x4 x5 x6 x7 a = _
  rw [Ideal.ofBits_zero_f32, zero_add, sum_drop12, ← sum_sp]
  refine Finset.sum_congr rfl fun h _ => Finset.sum_congr rfl fun w _ => ?_
  rw [out_fwc]
  generalize val_main_v29 (F := Ideal) x0 x1 x2 x3 x4 x5 x6 x7 = A
  exact mul_comm _ _

end Cert.ReferenceIdeal.RefValue

end
-- ==== Proof.RefValue.lean ====
/-
  The reference's three results as the mathematics' arrays of the arguments: its coefficient array is `coefR`,
  its softmax array the softmax over positions of that, and the results are read off the softmax array.
-/
import proofs.«131559_j55396488184259_2_alg».proof.Proof.Spec
import proofs.«131559_j55396488184259_2_alg».proof.Proof.RefCoef
import proofs.«131559_j55396488184259_2_alg».proof.Proof.RefSoftmax
import proofs.«131559_j55396488184259_2_alg».proof.Proof.RefOut

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem
open Cert.Pool

variable [Cert.ReferenceIdeal.Facts]

variable (x0 : (⟨S4x2048x14x14, .f32⟩ : BufTy).Contents (Elt Ideal)) (x1 : (⟨S80x300, .f32⟩ : BufTy).Contents (Elt Ideal)) (x2 : (⟨S1024x2048, .f32⟩ : BufTy).Contents (Elt Ideal)) (x3 : (⟨S1024x300, .f32⟩ : BufTy).Contents (Elt Ideal)) (x4 : (⟨S1024x1024, .f32⟩ : BufTy).Contents (Elt Ideal)) (x5 : (⟨S1024, .f32⟩ : BufTy).Contents (Elt Ideal)) (x6 : (⟨S1x1024, .f32⟩ : BufTy).Contents (Elt Ideal)) (x7 : (⟨S1, .f32⟩ : BufTy).Contents (Elt Ideal))

/-- The softmax array is the attention of `coefR`. -/
theorem attn_coefR (i : S4x196x80.Idx) :
    val_main_v29 (F := Ideal) x0 x1 x2 x3 x4 x5 x6 x7 i = attn1 (coefR ⟨x0, x1, x2, x3, x4, x5, x6, x7⟩ (i 0)) (i 1) (i 2) := by
  rw [attn_eq]
  congr 1
  funext s k
  exact coef_eq x0 x1 x2 x3 x4 x5 x6 x7 (ix3 (i 0) s k)

theorem ref_sm : val_main_v30 (F := Ideal) x0 x1 x2 x3 x4 x5 x6 x7 = outSm (coefR ⟨x0, x1, x2, x3, x4, x5, x6, x7⟩) := by
  funext i
  rw [out_sm, attn_coefR]
  rfl

theorem ref_fwc : val_main_v35 (F := Ideal) x0 x1 x2 x3 x4 x5 x6 x7 = outFwc ⟨x0, x1, x2, x3, x4, x5, x6, x7⟩ (coefR ⟨x0, x1, x2, x3, x4, x5, x6, x7⟩) := by
  funext i
  rw [out_fwc, attn_coefR]
  rfl

theorem ref_sem : val_main_v36 (F := Ideal) x0 x1 x2 x3 x4 x5 x6 x7 = outSem ⟨x0, x1, x2, x3, x4, x5, x6, x7⟩ (coefR ⟨x0, x1, x2, x3, x4, x5, x6, x7⟩) := by
  funext i
  rw [out_sem]
  unfold outSem
  refine Finset.sum_congr rfl fun s _ => ?_
  rw [attn_coefR]

end Cert.ReferenceIdeal.RefValue

end
-- ==== Proof.lean ====
/-
  The certificate's five claims.

  The three frames: the two kernel programs' are the generated frames over the programs' segments; the
  reference's is its generated run with the results dropped. The idealization rewrote nothing, so `preserves` is
  trivial.

  The algebraic claim. Both idealized programs end with the same three arrays of the arguments: the attention
  weights (a softmax over the 196 positions of a coefficient), the pixels scaled by the weights, and the weighted
  sum of the pixels over the positions (module Spec). The kernel forms the coefficient with the last two layers
  folded into one vector and one scalar (`coefK`: KValue, over the run KRun), the reference applies the layers
  one after the other (`coefR`: RefValue). The precondition makes the weights `W3`, `b3`, `W4` real numbers
  (Finite), and the bounded tanh factors are real whatever their arguments, so the two coefficients agree by
  distributivity and an exchange of two finite sums (Law); the image, the word vectors, `W1`, `W2` and `b4` may
  hold any extended reals.
-/
import proofs.«131559_j55396488184259_2_alg».proof.Defs
import proofs.«131559_j55396488184259_2_alg».proof.Proof.Gen.Kernel
import proofs.«131559_j55396488184259_2_alg».proof.Proof.Gen.Kernel.Skeleton
import proofs.«131559_j55396488184259_2_alg».proof.Proof.Gen.Kernel.Launch
import proofs.«131559_j55396488184259_2_alg».proof.Proof.Gen.Kernel.Points
import proofs.«131559_j55396488184259_2_alg».proof.Proof.Gen.Kernel.Frame
import proofs.«131559_j55396488184259_2_alg».proof.Proof.Gen.KernelIdeal
import proofs.«131559_j55396488184259_2_alg».proof.Proof.Gen.KernelIdeal.Skeleton
import proofs.«131559_j55396488184259_2_alg».proof.Proof.Gen.KernelIdeal.Launch
import proofs.«131559_j55396488184259_2_alg».proof.Proof.Gen.KernelIdeal.Points
import proofs.«131559_j55396488184259_2_alg».proof.Proof.Gen.KernelIdeal.Frame
import proofs.«131559_j55396488184259_2_alg».proof.Proof.Gen.ReferenceIdeal
import proofs.«131559_j55396488184259_2_alg».proof.Proof.Gen.ReferenceIdeal.Run
import proofs.«131559_j55396488184259_2_alg».proof.Proof.Gen.ReferenceIdeal.Read
import proofs.«131559_j55396488184259_2_alg».proof.Proof.Gen.Pre_finite_inputs
import proofs.«131559_j55396488184259_2_alg».proof.Proof.Spec
import proofs.«131559_j55396488184259_2_alg».proof.Proof.Law
import proofs.«131559_j55396488184259_2_alg».proof.Proof.Finite
import proofs.«131559_j55396488184259_2_alg».proof.Proof.KRun
import proofs.«131559_j55396488184259_2_alg».proof.Proof.KValue
import proofs.«131559_j55396488184259_2_alg».proof.Proof.RefValue
import Idealize.ShloMosaic.Adequacy
import Idealize.ShloMosaic.Init

noncomputable section

namespace Cert.Proof

open Idealize.ShloMosaic Idealize.SL.Sem Cert.Pool

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- From memories agreeing on the arguments, the kernel's results are the three arrays at `coefK` and the
    reference's the same arrays at `coefR`; under the precondition the two coefficients are one. -/
theorem algebraic : Cert.algebraic_KernelIdeal_ReferenceIdeal := by
  intro m ρ m' ρ' hpre hagree
  refine ⟨fun c => outSem (Cert.KernelIdeal.Val.ins m c) (coefK (Cert.KernelIdeal.Val.ins m c)),
    fun c => outFwc (Cert.KernelIdeal.Val.ins m c) (coefK (Cert.KernelIdeal.Val.ins m c)),
    fun c => outSm (coefK (Cert.KernelIdeal.Val.ins m c)), ?_, ?_⟩
  · refine (θ_run Cert.KernelIdeal.defs _ _).mono (fun r h c => ?_) (Cert.KernelIdeal.Val.run_named (F := Ideal) m ρ)
    obtain ⟨h17, h16, h12, hargs⟩ := h c
    exact ⟨h17.trans (Cert.KernelIdeal.Val.W5_v17 m ρ c), h16.trans (Cert.KernelIdeal.Val.W5_v16 m ρ c),
      h12.trans (Cert.KernelIdeal.Val.W5_v12 m ρ c), hargs⟩
  · refine (θ_run Cert.ReferenceIdeal.defs _ _).mono (fun r h c => ?_) (Cert.ReferenceIdeal.Value.run (F := Ideal) m' ρ')
    obtain ⟨h36, h35, h30, hargs⟩ := h c
    obtain ⟨a0, a1, a2, a3, a4, a5, a6, a7⟩ := hagree c
    have hR : RealWeights (Cert.KernelIdeal.Val.ins m c) := realWeights_of_fn _ _ _ _ _ _ _ _ (hpre c)
    have hco : coefR (Cert.KernelIdeal.Val.ins m c) = coefK (Cert.KernelIdeal.Val.ins m c) := (coefK_eq_coefR _ hR).symm
    refine ⟨h36.trans ?_, h35.trans ?_, h30.trans ?_, hargs⟩
    · rw [Cert.ReferenceIdeal.Read.val_main_v36_eq, Cert.ReferenceIdeal.RefValue.ref_sem, a0, a1, a2, a3, a4, a5, a6, a7]
      exact congrArg (outSem (Cert.KernelIdeal.Val.ins m c)) hco
    · rw [Cert.ReferenceIdeal.Read.val_main_v35_eq, Cert.ReferenceIdeal.RefValue.ref_fwc, a0, a1, a2, a3, a4, a5, a6, a7]
      exact congrArg (outFwc (Cert.KernelIdeal.Val.ins m c)) hco
    · rw [Cert.ReferenceIdeal.Read.val_main_v30_eq, Cert.ReferenceIdeal.RefValue.ref_sm, a0, a1, a2, a3, a4, a5, a6, a7]
      exact congrArg outSm hco

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
